-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x80x80x80 : Shape := ⟨5, ![2, 32, 80, 80, 80]⟩
abbrev S_ : Shape := ⟨0, ![]⟩

class Facts : Prop where
  bcast_S_S2x32x80x80x80 : S_.BroadcastsInDim S2x32x80x80x80 (![] : Fin 0 → Fin S2x32x80x80x80.rank)
  reducesTo_S2x32x80x80x80_S_d0_1_2_3_4 : S2x32x80x80x80.ReducesTo [0, 1, 2, 3, 4] S_
  h_S_ : 0 < S_.numel

variable [Facts]

def fn {F : FTy → Type} [FloatOps F] (main_arg0 : FVec F S2x32x80x80x80 .f32) (main_arg1 : FVec F S2x32x80x80x80 .f32) (main_arg2 : FVec F S2x32x80x80x80 .f32) : IVec S_ 1 :=
  let main_v0 : FVec F S2x32x80x80x80 .f32 := Host.absf main_arg0
  let main_cst : FVec F S_ .f32 := constant S_ .f32 0x7F800000#32
  let main_v1 : FVec F S2x32x80x80x80 .f32 := broadcastInDim S2x32x80x80x80 ![] bcast_S_S2x32x80x80x80 main_cst
  let main_v2 : IVec S2x32x80x80x80 1 := cmpf .olt main_v0 main_v1
  let main_c : IVec S_ 1 := constantI S_ 1 1#1
  let main_v3 : IVec S_ 1 := (fun x v => Host.reduce IntOp.andi x v reducesTo_S2x32x80x80x80_S_d0_1_2_3_4 h_S_) main_v2 main_c
  let main_v4 : FVec F S2x32x80x80x80 .f32 := Host.absf main_arg1
  let main_cst_0 : FVec F S_ .f32 := constant S_ .f32 0x7F800000#32
  let main_v5 : FVec F S2x32x80x80x80 .f32 := broadcastInDim S2x32x80x80x80 ![] bcast_S_S2x32x80x80x80 main_cst_0
  let main_v6 : IVec S2x32x80x80x80 1 := cmpf .olt main_v4 main_v5
  let main_c_1 : IVec S_ 1 := constantI S_ 1 1#1
  let main_v7 : IVec S_ 1 := (fun x v => Host.reduce IntOp.andi x v reducesTo_S2x32x80x80x80_S_d0_1_2_3_4 h_S_) main_v6 main_c_1
  let main_v8 : IVec S_ 1 := andi main_v3 main_v7
  let main_v9 : FVec F S2x32x80x80x80 .f32 := Host.absf main_arg2
  let main_cst_2 : FVec F S_ .f32 := constant S_ .f32 0x7F800000#32
  let main_v10 : FVec F S2x32x80x80x80 .f32 := broadcastInDim S2x32x80x80x80 ![] bcast_S_S2x32x80x80x80 main_cst_2
  let main_v11 : IVec S2x32x80x80x80 1 := cmpf .olt main_v9 main_v10
  let main_c_3 : IVec S_ 1 := constantI S_ 1 1#1
  let main_v12 : IVec S_ 1 := (fun x v => Host.reduce IntOp.andi x v reducesTo_S2x32x80x80x80_S_d0_1_2_3_4 h_S_) main_v11 main_c_3
  let main_v13 : IVec S_ 1 := andi main_v8 main_v12
  main_v13
-- ==== Kernel.lean ====
abbrev S2x32x80x80x80 : Shape := ⟨5, ![2, 32, 80, 80, 80]⟩
abbrev S2x80x80 : Shape := ⟨3, ![2, 80, 80]⟩
abbrev S1x32x8x80x80 : Shape := ⟨5, ![1, 32, 8, 80, 80]⟩
abbrev S1x80x80 : Shape := ⟨3, ![1, 80, 80]⟩
abbrev S80x80 : Shape := ⟨2, ![80, 80]⟩
abbrev S32x8x80x80 : Shape := ⟨4, ![32, 8, 80, 80]⟩
abbrev S80x8x32x80 : Shape := ⟨4, ![80, 8, 32, 80]⟩
abbrev S80x20480 : Shape := ⟨2, ![80, 20480]⟩
abbrev S_ : Shape := ⟨0, ![]⟩
abbrev S2x80 : Shape := ⟨2, ![2, 80]⟩
abbrev S2x80x1 : Shape := ⟨3, ![2, 80, 1]⟩

abbrev nBuf : Space → Nat
  | .hbm => 19
  | .vmem => 13
  | .smem => 0
  | _ => 0

abbrev bufTy : (tb : Table) → Fin (tcTables nBuf tb) → BufTy
  | .hbm, ⟨0, _⟩ => ⟨S2x32x80x80x80, .f32⟩
  | .hbm, ⟨1, _⟩ => ⟨S2x32x80x80x80, .f32⟩
  | .hbm, ⟨2, _⟩ => ⟨S2x32x80x80x80, .f32⟩
  | .hbm, ⟨3, _⟩ => ⟨S2x80x80, .f32⟩
  | .hbm, ⟨4, _⟩ => ⟨S_, .f32⟩
  | .hbm, ⟨5, _⟩ => ⟨S2x80, .f32⟩
  | .hbm, ⟨6, _⟩ => ⟨S_, .f32⟩
  | .hbm, ⟨7, _⟩ => ⟨S2x80, .f32⟩
  | .hbm, ⟨8, _⟩ => ⟨S2x80, .f32⟩
  | .hbm, ⟨9, _⟩ => ⟨S2x80x1, .f32⟩
  | .hbm, ⟨10, _⟩ => ⟨S2x80x80, .f32⟩
  | .hbm, ⟨11, _⟩ => ⟨S2x80x80, .f32⟩
  | .hbm, ⟨12, _⟩ => ⟨S2x80x80, .f32⟩
  | .hbm, ⟨13, _⟩ => ⟨S_, .f32⟩
  | .hbm, ⟨14, _⟩ => ⟨S2x80, .f32⟩
  | .hbm, ⟨15, _⟩ => ⟨S2x80x1, .f32⟩
  | .hbm, ⟨16, _⟩ => ⟨S2x80x80, .f32⟩
  | .hbm, ⟨17, _⟩ => ⟨S2x80x80, .f32⟩
  | .hbm, ⟨18, _⟩ => ⟨S2x32x80x80x80, .f32⟩
  | .local _ .vmem, ⟨0, _⟩ => ⟨S1x32x8x80x80, .f32⟩
  | .local _ .vmem, ⟨1, _⟩ => ⟨S1x32x8x80x80, .f32⟩
  | .local _ .vmem, ⟨2, _⟩ => ⟨S1x32x8x80x80, .f32⟩
  | .local _ .vmem, ⟨3, _⟩ => ⟨S1x32x8x80x80, .f32⟩
  | .local _ .vmem, ⟨4, _⟩ => ⟨S1x80x80, .f32⟩
  | .local _ .vmem, ⟨5, _⟩ => ⟨S1x80x80, .f32⟩
  | .local _ .vmem, ⟨6, _⟩ => ⟨S80x80, .f32⟩
  | .local _ .vmem, ⟨7, _⟩ => ⟨S1x80x80, .f32⟩
  | .local _ .vmem, ⟨8, _⟩ => ⟨S1x80x80, .f32⟩
  | .local _ .vmem, ⟨9, _⟩ => ⟨S1x32x8x80x80, .f32⟩
  | .local _ .vmem, ⟨10, _⟩ => ⟨S1x32x8x80x80, .f32⟩
  | .local _ .vmem, ⟨11, _⟩ => ⟨S1x32x8x80x80, .f32⟩
  | .local _ .vmem, ⟨12, _⟩ => ⟨S1x32x8x80x80, .f32⟩
  | _, _ => ⟨S2x32x80x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v17 : BitVec 1 := Scalar.cmpi .eq arg1 c9_i32
  let v18 : BitVec 32 := Scalar.extui v17
  let c0_i32_14 : BitVec 32 := 0#32
  let v19 : BitVec 1 := Scalar.cmpi .ne v18 c0_i32_14
  v19

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x8x80x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x8x80x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x80x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage1_0 : Fin 2 → Memref sig .tc .vmem S1x80x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x32x8x80x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32x8x80x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S80x80_S80x80_0_0 : ∀ a, (![0, 0] : Fin 2 → Nat) a + S80x80.size a ≤ S80x80.size a
  h_S80x80 : 0 < S80x80.numel
  shapeCasts_S80x80_S80x80 : S80x80.ShapeCasts S80x80
  inb_S1x32x8x80x80_S1x32x8x80x80_0_0_0_0_0 : ∀ a, (![0, 0, 0, 0, 0] : Fin 5 → Nat) a + S1x32x8x80x80.size a ≤ S1x32x8x80x80.size a
  h_S1x32x8x80x80 : 0 < S1x32x8x80x80.numel
  shapeCasts_S1x32x8x80x80_S32x8x80x80 : S1x32x8x80x80.ShapeCasts S32x8x80x80
  transposes_S32x8x80x80_p2_1_0_3_S80x8x32x80 : S32x8x80x80.Transposes [2, 1, 0, 3] S80x8x32x80
  shapeCasts_S80x8x32x80_S80x20480 : S80x8x32x80.ShapeCasts S80x20480
  inb_S1x80x80_S1x80x80_0_0_0 : ∀ a, (![0, 0, 0] : Fin 3 → Nat) a + S1x80x80.size a ≤ S1x80x80.size a
  h_S1x80x80 : 0 < S1x80x80.numel
  shapeCasts_S1x80x80_S80x80 : S1x80x80.ShapeCasts S80x80
  shapeCasts_S80x80_S1x80x80 : S80x80.ShapeCasts S1x80x80
  reducesTo_S2x80x80_S2x80_d2 : S2x80x80.ReducesTo [2] S2x80
  h_S_ : 0 < S_.numel
  bcast_S_S2x80 : S_.BroadcastsInDim S2x80 (![] : Fin 0 → Fin S2x80.rank)
  bcast_S2x80_S2x80x1_0_1 : S2x80.BroadcastsInDim S2x80x1 (![0, 1] : Fin 2 → Fin S2x80x1.rank)
  bcast_S2x80x1_S2x80x80_0_1_2 : S2x80x1.BroadcastsInDim S2x80x80 (![0, 1, 2] : Fin 3 → Fin S2x80x80.rank)
  shapeCasts_S80x20480_S80x8x32x80 : S80x20480.ShapeCasts S80x8x32x80
  transposes_S80x8x32x80_p2_1_0_3_S32x8x80x80 : S80x8x32x80.Transposes [2, 1, 0, 3] S32x8x80x80
  shapeCasts_S32x8x80x80_S1x32x8x80x80 : S32x8x80x80.ShapeCasts S1x32x8x80x80
  dot_S80x20480_S80x20480_S80x80_1_1_0_0_n_n_wf : DotDims.WF S80x20480 S80x20480 S80x80 [1] [1] [0] [0] [] []
  dot_S80x80_S80x20480_S80x20480_1_0_0_1_n_n_wf : DotDims.WF S80x80 S80x20480 S80x20480 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x8x80x80.size a ≤ S2x32x80x80x80.size a
  hwx0_0 : ∀ i : grid0.Coords, EltTy.bits .f32 = 32 ∨ (Rect.block (s := S2x32x80x80x80) S1x32x8x80x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x8x80x80.size a ≤ S2x32x80x80x80.size a
  hwx0_1 : ∀ i : grid0.Coords, EltTy.bits .f32 = 32 ∨ (Rect.block (s := S2x32x80x80x80) S1x32x8x80x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x80x80.size a ≤ S2x80x80.size a
  hwx0_2 : ∀ i : grid0.Coords, EltTy.bits .f32 = 32 ∨ (Rect.block (s := S2x80x80) S1x80x80.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x80x80.size a ≤ S2x80x80.size a
  hwx1_0 : ∀ i : grid1.Coords, EltTy.bits .f32 = 32 ∨ (Rect.block (s := S2x80x80) S1x80x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x8x80x80.size a ≤ S2x32x80x80x80.size a
  hwx1_1 : ∀ i : grid1.Coords, EltTy.bits .f32 = 32 ∨ (Rect.block (s := S2x32x80x80x80) S1x32x8x80x80.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x8x80x80.size a ≤ S2x32x80x80x80.size a
  hwx1_2 : ∀ i : grid1.Coords, EltTy.bits .f32 = 32 ∨ (Rect.block (s := S2x32x80x80x80) S1x32x8x80x80.size (cc1_transform_2 i) (hinb1_2 i)).WholeWords (EltTy.packing .f32)

variable [Facts₀]

def dot_S80x20480_S80x20480_S80x80_1_1_0_0_n_n : DotDims S80x20480 S80x20480 S80x80 where
  lhsContracting := [1]
  rhsContracting := [1]
  lhsNonContracting := [0]
  rhsNonContracting := [0]
  lhsBatch := []
  rhsBatch := []
  wf := dot_S80x20480_S80x20480_S80x80_1_1_0_0_n_n_wf
def dot_S80x80_S80x20480_S80x20480_1_0_0_1_n_n : DotDims S80x80 S80x20480 S80x20480 where
  lhsContracting := [1]
  rhsContracting := [0]
  lhsNonContracting := [0]
  rhsNonContracting := [1]
  lhsBatch := []
  rhsBatch := []
  wf := dot_S80x80_S80x20480_S80x20480_1_0_0_1_n_n_wf

abbrev win0_0 : Pipeline.Window sig grid0 :=
  Pipeline.Window.ofSpec (Memref.whole main_arg0) S1x32x8x80x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x8x80x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x80x80.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v11) S1x80x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x32x8x80x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x32x8x80x80.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x32x80x80x80 : Shape := ⟨5, ![2, 32, 80, 80, 80]⟩
abbrev S2x80x80x32x80 : Shape := ⟨5, ![2, 80, 80, 32, 80]⟩
abbrev S2x80x204800 : Shape := ⟨3, ![2, 80, 204800]⟩
abbrev S2x80x80 : Shape := ⟨3, ![2, 80, 80]⟩
abbrev S_ : Shape := ⟨0, ![]⟩
abbrev S2x80 : Shape := ⟨2, ![2, 80]⟩
abbrev S2x80x1 : Shape := ⟨3, ![2, 80, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x32x80x80x80, .f32⟩
  | .hbm, ⟨1, _⟩ => ⟨S2x32x80x80x80, .f32⟩
  | .hbm, ⟨2, _⟩ => ⟨S2x32x80x80x80, .f32⟩
  | .hbm, ⟨3, _⟩ => ⟨S2x80x80x32x80, .f32⟩
  | .hbm, ⟨4, _⟩ => ⟨S2x80x204800, .f32⟩
  | .hbm, ⟨5, _⟩ => ⟨S2x80x80x32x80, .f32⟩
  | .hbm, ⟨6, _⟩ => ⟨S2x80x204800, .f32⟩
  | .hbm, ⟨7, _⟩ => ⟨S2x80x80x32x80, .f32⟩
  | .hbm, ⟨8, _⟩ => ⟨S2x80x204800, .f32⟩
  | .hbm, ⟨9, _⟩ => ⟨S2x80x80, .f32⟩
  | .hbm, ⟨10, _⟩ => ⟨S_, .f32⟩
  | .hbm, ⟨11, _⟩ => ⟨S2x80, .f32⟩
  | .hbm, ⟨12, _⟩ => ⟨S_, .f32⟩
  | .hbm, ⟨13, _⟩ => ⟨S2x80, .f32⟩
  | .hbm, ⟨14, _⟩ => ⟨S2x80, .f32⟩
  | .hbm, ⟨15, _⟩ => ⟨S2x80x1, .f32⟩
  | .hbm, ⟨16, _⟩ => ⟨S2x80x80, .f32⟩
  | .hbm, ⟨17, _⟩ => ⟨S2x80x80, .f32⟩
  | .hbm, ⟨18, _⟩ => ⟨S2x80x80, .f32⟩
  | .hbm, ⟨19, _⟩ => ⟨S_, .f32⟩
  | .hbm, ⟨20, _⟩ => ⟨S2x80, .f32⟩
  | .hbm, ⟨21, _⟩ => ⟨S2x80x1, .f32⟩
  | .hbm, ⟨22, _⟩ => ⟨S2x80x80, .f32⟩
  | .hbm, ⟨23, _⟩ => ⟨S2x80x80, .f32⟩
  | .hbm, ⟨24, _⟩ => ⟨S2x80x204800, .f32⟩
  | .hbm, ⟨25, _⟩ => ⟨S2x80x80x32x80, .f32⟩
  | .hbm, ⟨26, _⟩ => ⟨S2x32x80x80x80, .f32⟩
  | _, _ => ⟨S2x32x80x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  transposes_S2x32x80x80x80_S2x80x80x32x80_0_3_2_1_4 : S2x32x80x80x80.Transposes [0, 3, 2, 1, 4] S2x80x80x32x80
  shapeCasts_S2x80x80x32x80_S2x80x204800 : S2x80x80x32x80.ShapeCasts S2x80x204800
  reducesTo_S2x80x80_S2x80_d2 : S2x80x80.ReducesTo [2] S2x80
  h_S_ : 0 < S_.numel
  bcast_S_S2x80 : S_.BroadcastsInDim S2x80 (![] : Fin 0 → Fin S2x80.rank)
  bcast_S2x80_S2x80x1_0_1 : S2x80.BroadcastsInDim S2x80x1 (![0, 1] : Fin 2 → Fin S2x80x1.rank)
  bcast_S2x80x1_S2x80x80_0_1_2 : S2x80x1.BroadcastsInDim S2x80x80 (![0, 1, 2] : Fin 3 → Fin S2x80x80.rank)
  shapeCasts_S2x80x204800_S2x80x80x32x80 : S2x80x204800.ShapeCasts S2x80x80x32x80
  transposes_S2x80x80x32x80_S2x32x80x80x80_0_3_2_1_4 : S2x80x80x32x80.Transposes [0, 3, 2, 1, 4] S2x32x80x80x80
  dot_S2x80x204800_S2x80x204800_S2x80x80_2_2_1_1_0_0_wf : DotDims.WF S2x80x204800 S2x80x204800 S2x80x80 [2] [2] [1] [1] [0] [0]
  dot_S2x80x80_S2x80x204800_S2x80x204800_2_1_1_2_0_0_wf : DotDims.WF S2x80x80 S2x80x204800 S2x80x204800 [2] [1] [1] [2] [0] [0]

variable [Facts₀]

def dot_S2x80x204800_S2x80x204800_S2x80x80_2_2_1_1_0_0 : DotDims S2x80x204800 S2x80x204800 S2x80x80 where
  lhsContracting := [2]
  rhsContracting := [2]
  lhsNonContracting := [1]
  rhsNonContracting := [1]
  lhsBatch := [0]
  rhsBatch := [0]
  wf := dot_S2x80x204800_S2x80x204800_S2x80x80_2_2_1_1_0_0_wf
def dot_S2x80x80_S2x80x204800_S2x80x204800_2_1_1_2_0_0 : DotDims S2x80x80 S2x80x204800 S2x80x204800 where
  lhsContracting := [2]
  rhsContracting := [1]
  lhsNonContracting := [1]
  rhsNonContracting := [2]
  lhsBatch := [0]
  rhsBatch := [0]
  wf := dot_S2x80x80_S2x80x204800_S2x80x204800_2_1_1_2_0_0_wf

class Facts : Prop extends Facts₀ where

variable [Facts]
-- ==== Proof.K.Data0.lean ====
/-
  The first call (the logits), as proof data at a PARAMETER `V`: the TensorCore's buffer contents when the call is
  entered.  Its grid is (batch, tile of 8 along H), 2 × 10 points in that order.  A scratch 80×80 accumulator is kept
  across the ten tiles of a batch: at a batch's first tile it is set to zero; at every tile the product of the two
  loaded blocks (each re-laid as 80 rows of 20480 features) is added to it; at the batch's last tile it is copied to the
  result window, which is written back only there and is left untouched at the other points.
-/
import proofs.«156811_j53326313947745_2_alg».proof.Proof.Gen.Kernel.Launch
import proofs.«156811_j53326313947745_2_alg».proof.Proof.Gen.Kernel.Skeleton
import proofs.«156811_j53326313947745_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The body's two conditions, in closed form -/

/-- "This is a batch's first tile", as the body computes it from the grid coordinates. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "This is a batch's last tile". -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off a batch's last tile the result window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At a batch's last tile it is live. -/
theorem liveAt0_2 : ∀ t : Fin cfg0.N, cond0_1 (grid0.coords t) → cfg0.idle 2 (grid0.coords t) = false := by decide +kernel

/-! ## The blocks, the scratch and the result window -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each window's current staging memref at point `t`, as the pipeline passes it, and its wholeness. -/
abbrev ms0_0 (t : Fin cfg0.N) : Memref sig .tc .vmem S1x32x8x80x80 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x8x80x80 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x80x80 .f32 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0 : Memref sig .tc .vmem S80x80 .f32 := Memref.whole cc0_scratch0

/-- THE ACCUMULATOR. What the scratch holds after the body at position `n`: at a batch's first tile the tile's
    product added to zero, at a later tile added to what the point before left. -/
def acc0 (c : Dev nD) : (n : ℕ) → n < cfg0.N → Vec F S80x80 .f32
  | 0, hn => k0_pay2 (iblk0 V c 0 ⟨0, hn⟩) (iblk0 V c 1 ⟨0, hn⟩) (k0_pay1 (F := F))
  | n + 1, hn =>
    if (n + 1) % 10 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a batch's first tile. -/
theorem acc0_first (c : Dev nD) (t : Fin cfg0.N) (h0 : t.val % 10 = 0) :
    acc0 V c t.val t.isLt = k0_pay2 (iblk0 V c 0 t) (iblk0 V c 1 t) (k0_pay1 (F := F)) := by
  obtain ⟨n, hn⟩ := t
  cases n with
  | zero => rfl
  | succ n => exact if_pos h0

/-- At a later tile. -/
theorem acc0_later (c : Dev nD) (t : Fin cfg0.N) (h0 : ¬t.val % 10 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact if_neg h0

/-- The core's scoped buffers other than the accumulator (the second call's staging buffers), each at some contents:
    the first call never touches them. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant with the accumulator as a memref owned at some contents. -/
theorem PhiA0_eq (c : Dev nD) :
    (Pipeline.ΦA spec0 c : sProp 𝕄)
      = iprop(iprop((∃ d, owns (c : Thread nD τ) scM0 fullShare d) ∗ restS c) ∗ (∃ r, prngReg c r)) := by
  unfold Pipeline.ΦA restS; rw [scopedRest0_eq]; simp only [scM0, owns_whole]; try rfl

/-- The region invariant before position `n`: before the first point the class's (every scoped buffer at anything);
    afterwards the accumulator at what the point before left in it, the other scoped buffers at anything, and the
    generator register at some state. -/
def PhiS (c : Dev nD) : (n : ℕ) → n ≤ cfg0.N → sProp 𝕄
  | 0, _ => Pipeline.ΦA spec0 c
  | n + 1, hn => iprop(iprop(owns (c : Thread nD τ) scM0 fullShare (acc0 V c n hn) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc0 V c n hn) ∗ restS c) ∗ (∃ r, prngReg c r)) := rfl

theorem PhiS_pos (c : Dev nD) (n : ℕ) (h : n ≤ cfg0.N) (hz : n ≠ 0) :
    PhiS V c n h = iprop(iprop(owns (c : Thread nD τ) scM0 fullShare (acc0 V c (n - 1) (by omega)) ∗ restS c) ∗ (∃ r, prngReg c r)) := by
  cases n with
  | zero => exact absurd rfl hz
  | succ n => rfl

/-! ## The proof data -/

/-- The proof data of the first call on core `c`: the arrays as the call finds them; after the body at point `t` each
    input's buffer at its block and the result window's at the accumulator re-laid (consulted only at a batch's last
    tile, where the body stores it); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay3 (acc0 V c t.val t.isLt) := by dsimp only [dat0]

end Cert.Kernel.Hand

end
-- ==== Proof.K.Run0.lean ====
/-
  The first call's body, run once per control case on whole staging memrefs.  The grid never meets "first and last tile
  at once", so there are three cases: a batch's first tile (the accumulator is zeroed, then the tile's product is added),
  a middle tile (the product is added to what the scratch held), and a batch's last tile (added, then copied to the
  result window).  Each run says what the scratch, and at the last tile the result window, hold afterwards, as the
  body's payloads of the loaded blocks; a window the case does not store into is handed back as it was found.
-/
import proofs.«156811_j53326313947745_2_alg».proof.Proof.K.Data0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles start at zero -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The tile's product added to `xs`, over loads of the three whole buffers at their contents: the loads read the
    contents. -/
theorem pay2_reads (arg2 : Memref sig .tc .vmem S1x32x8x80x80 .f32) (harg2 : arg2.IsWhole) (arg3 : Memref sig .tc .vmem S1x32x8x80x80 .f32) (harg3 : arg3.IsWhole)
    (arg5 : Memref sig .tc .vmem S80x80 .f32) (harg5 : arg5.IsWhole) (x0 x1 : Vec F S1x32x8x80x80 .f32) (xs : Vec F S80x80 .f32) :
    k0_pay2
        (View.readAt (Elt F) arg2.view (Rect.unit (s := S1x32x8x80x80) ![0, 0, 0, 0, 0] S1x32x8x80x80.size inb_S1x32x8x80x80_S1x32x8x80x80_0_0_0_0_0).toLoadRect (harg2.unread x0))
        (View.readAt (Elt F) arg3.view (Rect.unit (s := S1x32x8x80x80) ![0, 0, 0, 0, 0] S1x32x8x80x80.size inb_S1x32x8x80x80_S1x32x8x80x80_0_0_0_0_0).toLoadRect (harg3.unread x1))
        (View.readAt (Elt F) arg5.view (Rect.unit (s := S80x80) ![0, 0] S80x80.size inb_S80x80_S80x80_0_0).toLoadRect (harg5.unread xs))
      = k0_pay2 x0 x1 xs := by
  rw [View.readAt_eq_ld, View.readAt_eq_ld, View.readAt_eq_ld, harg2.read_unread, harg3.read_unread, harg5.read_unread,
    View.ld_unit_zero (S := S1x32x8x80x80) hz5, View.ld_unit_zero (S := S1x32x8x80x80) hz5, View.ld_unit_zero (S := S80x80) hz2]

/-- The same with the scratch read back after the zeroing store. -/
theorem pay2_reads_zero (arg2 : Memref sig .tc .vmem S1x32x8x80x80 .f32) (harg2 : arg2.IsWhole) (arg3 : Memref sig .tc .vmem S1x32x8x80x80 .f32) (harg3 : arg3.IsWhole)
    (x0 x1 : Vec F S1x32x8x80x80 .f32) (z : Vec F S80x80 .f32) :
    k0_pay2
        (View.readAt (Elt F) arg2.view (Rect.unit (s := S1x32x8x80x80) ![0, 0, 0, 0, 0] S1x32x8x80x80.size inb_S1x32x8x80x80_S1x32x8x80x80_0_0_0_0_0).toLoadRect (harg2.unread x0))
        (View.readAt (Elt F) arg3.view (Rect.unit (s := S1x32x8x80x80) ![0, 0, 0, 0, 0] S1x32x8x80x80.size inb_S1x32x8x80x80_S1x32x8x80x80_0_0_0_0_0).toLoadRect (harg3.unread x1))
        z
      = k0_pay2 x0 x1 z := by
  rw [View.readAt_eq_ld, View.readAt_eq_ld, harg2.read_unread, harg3.read_unread,
    View.ld_unit_zero (S := S1x32x8x80x80) hz5, View.ld_unit_zero (S := S1x32x8x80x80) hz5]

/-! ## The three runs -/

set_option maxHeartbeats 1000000 in
/-- A batch's LAST tile (not its first): the product is added to what the scratch held, and the sum is copied to the
    result window. -/
theorem run0_C (c : Dev nD) (i : grid0.Coords) (arg2 : Memref sig .tc .vmem S1x32x8x80x80 .f32) (harg2 : arg2.IsWhole) (arg3 : Memref sig .tc .vmem S1x32x8x80x80 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 x1 : Vec F S1x32x8x80x80 .f32) (xs : Vec F S80x80 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay3 (k0_pay2 x0 x1 xs)) ∗ owns (c : Thread nD τ) arg5 fullShare (k0_pay2 x0 x1 xs)) -∗ K ⟨⟩))
      ⊢ wp frame (wpE (defs₀ (F := F)) Variants.none c none) E (cc0__qk_kernel i arg2 harg2 arg3 harg3 arg4 harg4 arg5 harg5) K := by
  simp only [cc0__qk_kernel_eq_skeleton]; unfold cc0__qk_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    refine (View.read_writes_eq_canon _ _ _ (fun y => ⟨_, List.mem_singleton_self _,
      View.mem_set_unit_zero hz3 inb_S1x80x80_S1x80x80_0_0_0 y⟩)).trans ?_
    rw [View.canon_unit_zero hz3]
    sl_unfold_words
    rw [View.readCov_unit_zero _ hz2, pay2_reads]
  · iexists _; isplitr
    swap; · iexact HS
    ipureintro
    sl_unfold_words
    refine (View.read_writes_eq_canon _ _ _ (fun y => ⟨_, List.mem_singleton_self _,
      View.mem_set_unit_zero hz2 inb_S80x80_S80x80_0_0 y⟩)).trans ?_
    rw [View.canon_unit_zero hz2, pay2_reads]

set_option maxHeartbeats 1000000 in
/-- A MIDDLE tile: the product is added to what the scratch held; the result window is handed back as found. -/
theorem run0_B (c : Dev nD) (i : grid0.Coords) (arg2 : Memref sig .tc .vmem S1x32x8x80x80 .f32) (harg2 : arg2.IsWhole) (arg3 : Memref sig .tc .vmem S1x32x8x80x80 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : ¬cond0_1 i)
    (x0 x1 : Vec F S1x32x8x80x80 .f32) (d4 : Vec F S1x80x80 .f32) (xs : Vec F S80x80 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare xs
        ∗ (iprop(owns (c : Thread nD τ) arg2 fullShare x0 ∗ owns (c : Thread nD τ) arg3 fullShare x1 ∗ owns (c : Thread nD τ) arg4 fullShare d4 ∗ owns (c : Thread nD τ) arg5 fullShare (k0_pay2 x0 x1 xs)) -∗ K ⟨⟩))
      ⊢ wp frame (wpE (defs₀ (F := F)) Variants.none c none) E (cc0__qk_kernel i arg2 harg2 arg3 harg3 arg4 harg4 arg5 harg5) K := by
  simp only [cc0__qk_kernel_eq_skeleton]; unfold cc0__qk_kernel_skel
  unfold owns
  iintro ⟨⟨%f0, %hf0, H0⟩, ⟨%f1, %hf1, H1⟩, ⟨%f4, %hf4, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  · iexists _; isplitr
    swap; · iexact HS
    ipureintro
    sl_unfold_words
    refine (View.read_writes_eq_canon _ _ _ (fun y => ⟨_, List.mem_singleton_self _,
      View.mem_set_unit_zero hz2 inb_S80x80_S80x80_0_0 y⟩)).trans ?_
    rw [View.canon_unit_zero hz2, pay2_reads]

set_option maxHeartbeats 1000000 in
/-- A batch's FIRST tile (not its last): the scratch, whatever it held, is set to zero and the product is added to
    that; the result window is handed back as found. -/
theorem run0_A (c : Dev nD) (i : grid0.Coords) (arg2 : Memref sig .tc .vmem S1x32x8x80x80 .f32) (harg2 : arg2.IsWhole) (arg3 : Memref sig .tc .vmem S1x32x8x80x80 .f32) (harg3 : arg3.IsWhole) (arg4 : Memref sig .tc .vmem S1x80x80 .f32) (harg4 : arg4.IsWhole) (arg5 : Memref sig .tc .vmem S80x80 .f32) (harg5 : arg5.IsWhole) (hc0 : cond0_0 i) (hc1 : ¬cond0_1 i)
    (x0 x1 : Vec F S1x32x8x80x80 .f32) (d4 : Vec F S1x80x80 .f32) (E : Set ℕ) (K : PUnit → sProp 𝕄) :
    iprop(owns (c : Thread nD τ) arg2 fullShare x0 ∗ owns (c : Thread nD τ) arg3 fullShare x1 ∗ owns (c : Thread nD τ) arg4 fullShare d4 ∗ (∃ d, owns (c : Thread nD τ) arg5 fullShare d)
        ∗ (iprop(owns (c : Thread nD τ) arg2 fullShare x0 ∗ owns (c : Thread nD τ) arg3 fullShare x1 ∗ owns (c : Thread nD τ) arg4 fullShare d4 ∗ owns (c : Thread nD τ) arg5 fullShare (k0_pay2 x0 x1 (k0_pay1 (F := F)))) -∗ K ⟨⟩))
      ⊢ wp frame (wpE (defs₀ (F := F)) Variants.none c none) E (cc0__qk_kernel i arg2 harg2 arg3 harg3 arg4 harg4 arg5 harg5) K := by
  simp only [cc0__qk_kernel_eq_skeleton]; unfold cc0__qk_kernel_skel
  unfold owns
  iintro ⟨⟨%f0, %hf0, H0⟩, ⟨%f1, %hf1, H1⟩, ⟨%f4, %hf4, H4⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  · iexists _; isplitr
    swap; · iexact HS
    ipureintro
    sl_unfold_words
    refine (View.read_writes_eq_canon _ _ _ (fun y => ⟨_, List.mem_cons_self,
      View.mem_set_unit_zero hz2 inb_S80x80_S80x80_0_0 y⟩)).trans ?_
    rw [View.canon_cons_unit_zero hz2, View.readCov_unit_zero _ hz2, pay2_reads_zero]

end Cert.Kernel.Hand

end
-- ==== Proof.K.Body0.lean ====
/-
  The first call's body at every grid point, and the invariant's two ends.  The point's case is read off its position:
  a batch's first tile is a point ≡ 0 (mod 10), its last a point ≡ 9 (mod 10).  The invariant hands the body the
  accumulator at what the point before left (at anything before the first point) and takes it back at this point's
  contents; the other scoped buffers and the generator register pass through untouched; the core owes nothing.
-/
import proofs.«156811_j53326313947745_2_alg».proof.Proof.K.Run0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

/-- Each input's current staging buffer holds its block at every point (both are fetched at every point; the lemma
    covers either way). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point, by its case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 10 = 9
  · -- a batch's last tile
    have h0 : ¬t.val % 10 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [acc0_later V c t h0]
    rw [PhiS_castSucc V c t, PhiS_pos V c _ _ hz]
    iintro ⟨⟨⟨HS, Hrest⟩, Hg⟩, Ho, ⟨%d0, H0⟩, ⟨%d1, H1⟩, ⟨%d2, H2⟩⟩
    iapply (run0_C c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 10 = 0
    · -- a batch's first tile
      rw [acc0_first V c t h0]
      by_cases hz : t.val = 0
      · rw [PhiS_castSucc V c t, PhiS_zero V c _ _ hz, PhiA0_eq]
        iintro ⟨⟨⟨HS, Hrest⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS, Hrest⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexists _; iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
    · -- a middle tile
      have hz : t.val ≠ 0 := fun e => h0 (by rw [e])
      rw [acc0_later V c t h0]
      rw [PhiS_castSucc V c t, PhiS_pos V c _ _ hz]
      iintro ⟨⟨⟨HS, Hrest⟩, Hg⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the launch hands the call is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped rest back, the accumulator's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 20 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS, Hrest⟩, Hg⟩
  isplitl [HS Hrest]
  · isplitl [HS]
    · iexists _; iexact HS
    iexact Hrest
  iexact Hg

end Cert.Kernel.Hand

end
-- ==== Proof.K.Data1.lean ====
/-
  The second call (the weights applied to the values), as proof data at a PARAMETER `V`: the TensorCore's buffer
  contents when the call is entered.  Its grid is (batch, tile of 8 along H); at a point the body loads the batch's
  80×80 weights and the tile's block of the values, and stores the product, re-laid, into the tile's block of the
  result.  No point keeps anything for a later one.
-/
import proofs.«156811_j53326313947745_2_alg».proof.Proof.Gen.Kernel.Launch
import proofs.«156811_j53326313947745_2_alg».proof.Proof.Gen.Kernel.Skeleton
import proofs.«156811_j53326313947745_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1×80×80 buffer and the whole 1×32×8×80×80 buffer, as the body's accesses name them. -/
abbrev r1_att : Rect S1x80x80 := Rect.unit (s := S1x80x80) ![0, 0, 0] S1x80x80.size inb_S1x80x80_S1x80x80_0_0_0
abbrev r1_blk : Rect S1x32x8x80x80 := Rect.unit (s := S1x32x8x80x80) ![0, 0, 0, 0, 0] S1x32x8x80x80.size inb_S1x32x8x80x80_S1x32x8x80x80_0_0_0_0_0

/-- What the body leaves in the result window's buffer: its one store, of the product of the weights' block with the
    values' block. -/
def out1_2 (x0 : Vec F S1x80x80 .f32) (x1 : Vec F S1x32x8x80x80 .f32) : Vec F S1x32x8x80x80 .f32 :=
  View.canon [⟨r1_blk, k1_pay1 (View.ld x0 r1_att) (View.ld x1 r1_blk)⟩]

/-- The proof data of the second call on core `c`: the arrays as the call finds them; after the body at point `t` each
    input's buffer at its block and the result's at `out1_2` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

end Cert.Kernel.Hand

end
-- ==== Proof.K.Body1.lean ====
/-
  The second call's body at every grid point.  At a point the body reads the batch's 80×80 weights and the tile's
  block of the values, reads the result window's buffer too (and makes no use of what it read), and stores the
  product, re-laid, over the whole of the result window's buffer.  The weights' block depends on the batch alone, so
  the pipeline moves it only at a batch's first tile; at the other nine tiles the buffer still holds it.
-/
import proofs.«156811_j53326313947745_2_alg».proof.Proof.K.Data1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the two input windows' buffers -/

/-- The weights' buffer holds the batch's weights at every point, for any proof data whose array is the entry
    contents' and whose body leaves the block in place.  The window is moved only where the batch changes (the
    points ≡ 0 mod 10); at a point where it is not moved its block index is the one of the point before, whose
    block is therefore this point's.  The window is an input, is never idle and is never cut. -/
theorem weights_before_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- The values' buffer holds the tile's block at every point: this window is moved at every point. -/
theorem values_before_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  weights_before_of V (dat1 V c) (A_eq1 V c 0) (after1_0 V c) t d
theorem before1_1 (c : Dev nD) (t : Fin cfg1.N) (d) : (dat1 V c).before 1 t d = iblk1 V c 1 t :=
  values_before_of V (dat1 V c) (A_eq1 V c 1) (after1_1 V c) t d

/-! ## The body's one store covers the result window's buffer -/

/-- The store's rectangle is the whole 1×32×8×80×80 buffer. -/
theorem cover1_2 (p0 : Vec F S1x32x8x80x80 .f32) (y : S1x32x8x80x80.Idx) :
    ∃ pc ∈ ([⟨r1_blk, p0⟩] : List (View.Piece (Elt F) S1x32x8x80x80 .f32)), y ∈ pc.1.set :=
  View.cover_of_tiled [⟨r1_blk, p0⟩] S1x32x8x80x80.size (by rfl) y

/-! ## The body's triple -/

set_option maxHeartbeats 1000000 in
/-- The body on whole buffers, the weights' reading `x0`, the values' reading `x1` and the result's at anything,
    runs to the continuation with the two inputs as they were and the result's buffer at `out1_2 x0 x1`: the two
    loads read `x0` and `x1` whole, the third load's value goes nowhere, and the store writes every entry. -/
theorem sound_kernel1 (c : Dev nD) (E : Set ℕ) (i : grid1.Coords)
    (arg2 : Memref sig .tc .vmem S1x80x80 .f32) (harg2 : arg2.IsWhole)
    (arg3 : Memref sig .tc .vmem S1x32x8x80x80 .f32) (harg3 : arg3.IsWhole)
    (arg4 : Memref sig .tc .vmem S1x32x8x80x80 .f32) (harg4 : arg4.IsWhole)
    (x0 : Vec F S1x80x80 .f32) (x1 : Vec F S1x32x8x80x80 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__av_kernel i arg2 harg2 arg3 harg3 arg4 harg4) K := by
  simp only [cc1__av_kernel_eq_skeleton]; unfold cc1__av_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation -/

/-- What the body is called with at point `t`, the three windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two inputs' buffers hold their blocks, so the triple applies; the invariant (the same
    at every point) and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  THE RUN.  The program is three segments in order: the first call (the logits, accumulated tile by tile), the fourteen
  host operations of the softmax, the second call (the weights applied to the values).  The buffers' contents at the
  four boundaries are a fold from the launch memory: a call leaves its arrays at what its write-backs make of them and
  every other buffer as it found it; the host stretch leaves what running its operations gives.  No segment writes an
  argument, so the fold read at an argument walks back to the launch memory.
-/
import proofs.«156811_j53326313947745_2_alg».proof.Proof.K.Body0
import proofs.«156811_j53326313947745_2_alg».proof.Proof.K.Body1
import proofs.«156811_j53326313947745_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- Core `c`'s buffers at launch: what the first call is entered from. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After the first call: its three arrays at what the write-backs of all twenty points leave (the two inputs as
    entered, the logits written once per batch), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At the first call's exit each of its arrays holds what the pipeline leaves, and every other buffer what it held
    at entry. -/
theorem left0 (c : Dev nD) (w : Fin cfg0.W) : (dat0 (V0 m ρ) c).arrAt w cfg0.N = V1 m ρ c (Pipeline.arrRef spec0 w) :=
  (W1_arr m ρ c w).symm
theorem kept0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the softmax's host operations: what the second call is entered from. -/
abbrev W2 : Dev nD → Valuation τ sig (Elt F) := fun c => StableHlo.after hostOps1 (W1 m ρ c)
/-- The same read at the TensorCore's references. -/
abbrev V2 : (c : Dev nD) → (b : Ref sig .tc) → Buf (Elt F) ((c : Thread nD τ).loc b) := fun c b => W2 m ρ c b
/-- After the second call: its three arrays at what the write-backs leave (the weights and the values as entered, the
    result written block by block), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem left1 (c : Dev nD) (w : Fin cfg1.W) : (dat1 (V2 m ρ) c).arrAt w cfg1.N = V3 m ρ c (Pipeline.arrRef spec1 w) :=
  (W3_arr m ρ c w).symm
theorem kept1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched

The first two arguments are input windows of the first call and no array of the second; the third is no array of the
first call and an input window of the second; the host operations write none of the three. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) :=
        (W1_arr m ρ c 1).trans (((dat0 (V0 m ρ) c).arrAt_in 1 rfl _).trans (A_eq0 (V0 m ρ) c 1))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) :=
        (W3_arr m ρ c 1).trans (((dat1 (V2 m ρ) c).arrAt_in 1 rfl _).trans (A_eq1 (V2 m ρ) c 1))
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

/-! ## The proof data of both calls, and what rides beside the buffers -/

/-- Both calls' proof data, each at the contents its call is entered from: a literal match on the call's index. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c

abbrev plain : Variants := Variants.none
/-- No core owes another anything, so no level is assigned. -/
abbrev noDues : GSem nD τ sig → Finset Unit := fun _ => ∅
abbrev noLevel : GSem nD τ sig → Unit → ℕ := fun _ _ => 0
/-- Beside the buffers every segment carries the core's generator register at some state and its dues, at nothing. -/
abbrev beside (c : Dev nD) : sProp 𝕄 :=
  iprop((∃ r, prngReg c r) ∗ ∃ W, owes (c : Thread nD τ) (0 : CellTallies nD τ sig Unit) W)

/-- A stretch of host operations as a segment: from every unscoped buffer at `W` to every unscoped buffer at what the
    operations make of `W`, `beside` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ plain noDues noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at `W3`, the generator register at some state. -/
abbrev atEnd (c : Dev nD) : sProp 𝕄 :=
  iprop(StableHlo.held (c : Thread nD τ) (Pipeline.ucRefs τ sig) (W3 m ρ c) ∗ ∃ r, prngReg c r)

/-! ## The two calls as segments -/

set_option backward.isDefEq.respectTransparency.types false in
/-- THE FIRST CALL, entered from every unscoped buffer at `W0` and left at `W1`.  Its three arrays are split out of
    the unscoped buffers and put back at the exit contents.  The generator register and the scoped rest make the
    class's invariant, which is what the accumulator's invariant is before the first point; after the last point the
    accumulator's invariant gives the class's back, the accumulator's contents forgotten. -/
def reg0 : Pipeline.RegionSeg (pcfgs (F := F)) adm (pdats m ρ) () defs₀ plain noDues noLevel 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ noDues noLevel 0 fun _ _ => rfl
  pre c := iprop(StableHlo.held (c : Thread nD τ) (Pipeline.ucRefs τ sig) (W0 m ρ c) ∗ beside c)
  post c := iprop(StableHlo.held (c : Thread nD τ) (Pipeline.ucRefs τ sig) (W1 m ρ c) ∗ beside c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL, entered from every unscoped buffer at `W2` and left at `W3` (what the launch reads at the end).
    Its invariant is the class's at every point: the generator register and the scoped rest go in and come back. -/
def reg1 : Pipeline.RegionSeg (pcfgs (F := F)) adm (pdats m ρ) () defs₀ plain noDues noLevel 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ noDues noLevel 1 fun _ _ => rfl
  pre c := iprop(StableHlo.held (c : Thread nD τ) (Pipeline.ucRefs τ sig) (W2 m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

/-- The three segments in order: no host operation stands before the first call or after the second. -/
abbrev segs : List (Pipeline.Seg (pcfgs (F := F)) adm (pdats m ρ) () defs₀ plain noDues noLevel) :=
  [ .region (reg0 m ρ),
    .host (hseg hostOps1 hostOps1_sub hostOps1_fresh (W1 m ρ)),
    .region (reg1 m ρ) ]

/-- The program is the run of its segments: it is the chain of the two calls around the host stretch, and so is the
    segments' run. -/
theorem main_run (c : Dev nD) : main (F := F) c = Pipeline.Seg.run (segs m ρ) := (main_chain c).trans (by chain_rfl)

set_option backward.isDefEq.respectTransparency.types false in
/-- From any memory with zero counters every weakly fair execution of the program on the TensorCores terminates, and
    every final memory holds, on every core, every unscoped buffer at the fold's last contents `W3`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W3 m ρ c b) :=
  Pipeline.θ_run_regions_kit (pcfgs (F := F)) adm (pdats m ρ) () cellOf_inj emb₁ defs₀ plain noDues noLevel m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := atEnd m ρ)
    (hch := ⟨fun _ => .rfl, fun _ => .rfl, fun _ => .rfl, fun _ => .rfl⟩)
    (hinit := by
      refine Pipeline.initEach noDues noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- The frame: every argument array ends holding what it was launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c)⟩) (run_all m ρ)

end Cert.Kernel.Hand

end
-- ==== Proof.KI.Data0.lean ====
/-
  The first call (the logits), as proof data at a PARAMETER `V`: the TensorCore's buffer contents when the call is
  entered.  Its grid is (batch, tile of 8 along H), 2 × 10 points in that order.  A scratch 80×80 accumulator is kept
  across the ten tiles of a batch: at a batch's first tile it is set to zero; at every tile the product of the two
  loaded blocks (each re-laid as 80 rows of 20480 features) is added to it; at the batch's last tile it is copied to the
  result window, which is written back only there and is left untouched at the other points.
-/
import proofs.«156811_j53326313947745_2_alg».proof.Proof.Gen.KernelIdeal.Launch
import proofs.«156811_j53326313947745_2_alg».proof.Proof.Gen.KernelIdeal.Skeleton
import proofs.«156811_j53326313947745_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The body's two conditions, in closed form -/

/-- "This is a batch's first tile", as the body computes it from the grid coordinates. -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "This is a batch's last tile". -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off a batch's last tile the result window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At a batch's last tile it is live. -/
theorem liveAt0_2 : ∀ t : Fin cfg0.N, cond0_1 (grid0.coords t) → cfg0.idle 2 (grid0.coords t) = false := by decide +kernel

/-! ## The blocks, the scratch and the result window -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each window's current staging memref at point `t`, as the pipeline passes it, and its wholeness. -/
abbrev ms0_0 (t : Fin cfg0.N) : Memref sig .tc .vmem S1x32x8x80x80 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x8x80x80 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x80x80 .f32 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0 : Memref sig .tc .vmem S80x80 .f32 := Memref.whole cc0_scratch0

/-- THE ACCUMULATOR. What the scratch holds after the body at position `n`: at a batch's first tile the tile's
    product added to zero, at a later tile added to what the point before left. -/
def acc0 (c : Dev nD) : (n : ℕ) → n < cfg0.N → Vec F S80x80 .f32
  | 0, hn => k0_pay2 (iblk0 V c 0 ⟨0, hn⟩) (iblk0 V c 1 ⟨0, hn⟩) (k0_pay1 (F := F))
  | n + 1, hn =>
    if (n + 1) % 10 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a batch's first tile. -/
theorem acc0_first (c : Dev nD) (t : Fin cfg0.N) (h0 : t.val % 10 = 0) :
    acc0 V c t.val t.isLt = k0_pay2 (iblk0 V c 0 t) (iblk0 V c 1 t) (k0_pay1 (F := F)) := by
  obtain ⟨n, hn⟩ := t
  cases n with
  | zero => rfl
  | succ n => exact if_pos h0

/-- At a later tile. -/
theorem acc0_later (c : Dev nD) (t : Fin cfg0.N) (h0 : ¬t.val % 10 = 0) :
    acc0 V c t.val t.isLt = k0_pay2 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact if_neg h0

/-- The core's scoped buffers other than the accumulator (the second call's staging buffers), each at some contents:
    the first call never touches them. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant with the accumulator as a memref owned at some contents. -/
theorem PhiA0_eq (c : Dev nD) :
    (Pipeline.ΦA spec0 c : sProp 𝕄)
      = iprop(iprop((∃ d, owns (c : Thread nD τ) scM0 fullShare d) ∗ restS c) ∗ (∃ r, prngReg c r)) := by
  unfold Pipeline.ΦA restS; rw [scopedRest0_eq]; simp only [scM0, owns_whole]; try rfl

/-- The region invariant before position `n`: before the first point the class's (every scoped buffer at anything);
    afterwards the accumulator at what the point before left in it, the other scoped buffers at anything, and the
    generator register at some state. -/
def PhiS (c : Dev nD) : (n : ℕ) → n ≤ cfg0.N → sProp 𝕄
  | 0, _ => Pipeline.ΦA spec0 c
  | n + 1, hn => iprop(iprop(owns (c : Thread nD τ) scM0 fullShare (acc0 V c n hn) ∗ restS c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc0 V c n hn) ∗ restS c) ∗ (∃ r, prngReg c r)) := rfl

theorem PhiS_pos (c : Dev nD) (n : ℕ) (h : n ≤ cfg0.N) (hz : n ≠ 0) :
    PhiS V c n h = iprop(iprop(owns (c : Thread nD τ) scM0 fullShare (acc0 V c (n - 1) (by omega)) ∗ restS c) ∗ (∃ r, prngReg c r)) := by
  cases n with
  | zero => exact absurd rfl hz
  | succ n => rfl

/-! ## The proof data -/

/-- The proof data of the first call on core `c`: the arrays as the call finds them; after the body at point `t` each
    input's buffer at its block and the result window's at the accumulator re-laid (consulted only at a batch's last
    tile, where the body stores it); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay3 (acc0 V c t.val t.isLt) := by dsimp only [dat0]

end Cert.KernelIdeal.Hand

end
-- ==== Proof.KI.Run0.lean ====
/-
  The first call's body, run once per control case on whole staging memrefs.  The grid never meets "first and last tile
  at once", so there are three cases: a batch's first tile (the accumulator is zeroed, then the tile's product is added),
  a middle tile (the product is added to what the scratch held), and a batch's last tile (added, then copied to the
  result window).  Each run says what the scratch, and at the last tile the result window, hold afterwards, as the
  body's payloads of the loaded blocks; a window the case does not store into is handed back as it was found.
-/
import proofs.«156811_j53326313947745_2_alg».proof.Proof.KI.Data0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles start at zero -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- The tile's product added to `xs`, over loads of the three whole buffers at their contents: the loads read the
    contents. -/
theorem pay2_reads (arg2 : Memref sig .tc .vmem S1x32x8x80x80 .f32) (harg2 : arg2.IsWhole) (arg3 : Memref sig .tc .vmem S1x32x8x80x80 .f32) (harg3 : arg3.IsWhole)
    (arg5 : Memref sig .tc .vmem S80x80 .f32) (harg5 : arg5.IsWhole) (x0 x1 : Vec F S1x32x8x80x80 .f32) (xs : Vec F S80x80 .f32) :
    k0_pay2
        (View.readAt (Elt F) arg2.view (Rect.unit (s := S1x32x8x80x80) ![0, 0, 0, 0, 0] S1x32x8x80x80.size inb_S1x32x8x80x80_S1x32x8x80x80_0_0_0_0_0).toLoadRect (harg2.unread x0))
        (View.readAt (Elt F) arg3.view (Rect.unit (s := S1x32x8x80x80) ![0, 0, 0, 0, 0] S1x32x8x80x80.size inb_S1x32x8x80x80_S1x32x8x80x80_0_0_0_0_0).toLoadRect (harg3.unread x1))
        (View.readAt (Elt F) arg5.view (Rect.unit (s := S80x80) ![0, 0] S80x80.size inb_S80x80_S80x80_0_0).toLoadRect (harg5.unread xs))
      = k0_pay2 x0 x1 xs := by
  rw [View.readAt_eq_ld, View.readAt_eq_ld, View.readAt_eq_ld, harg2.read_unread, harg3.read_unread, harg5.read_unread,
    View.ld_unit_zero (S := S1x32x8x80x80) hz5, View.ld_unit_zero (S := S1x32x8x80x80) hz5, View.ld_unit_zero (S := S80x80) hz2]

/-- The same with the scratch read back after the zeroing store. -/
theorem pay2_reads_zero (arg2 : Memref sig .tc .vmem S1x32x8x80x80 .f32) (harg2 : arg2.IsWhole) (arg3 : Memref sig .tc .vmem S1x32x8x80x80 .f32) (harg3 : arg3.IsWhole)
    (x0 x1 : Vec F S1x32x8x80x80 .f32) (z : Vec F S80x80 .f32) :
    k0_pay2
        (View.readAt (Elt F) arg2.view (Rect.unit (s := S1x32x8x80x80) ![0, 0, 0, 0, 0] S1x32x8x80x80.size inb_S1x32x8x80x80_S1x32x8x80x80_0_0_0_0_0).toLoadRect (harg2.unread x0))
        (View.readAt (Elt F) arg3.view (Rect.unit (s := S1x32x8x80x80) ![0, 0, 0, 0, 0] S1x32x8x80x80.size inb_S1x32x8x80x80_S1x32x8x80x80_0_0_0_0_0).toLoadRect (harg3.unread x1))
        z
      = k0_pay2 x0 x1 z := by
  rw [View.readAt_eq_ld, View.readAt_eq_ld, harg2.read_unread, harg3.read_unread,
    View.ld_unit_zero (S := S1x32x8x80x80) hz5, View.ld_unit_zero (S := S1x32x8x80x80) hz5]

/-! ## The three runs -/

set_option maxHeartbeats 1000000 in
/-- A batch's LAST tile (not its first): the product is added to what the scratch held, and the sum is copied to the
    result window. -/
theorem run0_C (c : Dev nD) (i : grid0.Coords) (arg2 : Memref sig .tc .vmem S1x32x8x80x80 .f32) (harg2 : arg2.IsWhole) (arg3 : Memref sig .tc .vmem S1x32x8x80x80 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : cond0_1 i)
    (x0 x1 : Vec F S1x32x8x80x80 .f32) (xs : Vec F S80x80 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay3 (k0_pay2 x0 x1 xs)) ∗ owns (c : Thread nD τ) arg5 fullShare (k0_pay2 x0 x1 xs)) -∗ K ⟨⟩))
      ⊢ wp frame (wpE (defs₀ (F := F)) Variants.none c none) E (cc0__qk_kernel i arg2 harg2 arg3 harg3 arg4 harg4 arg5 harg5) K := by
  simp only [cc0__qk_kernel_eq_skeleton]; unfold cc0__qk_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    refine (View.read_writes_eq_canon _ _ _ (fun y => ⟨_, List.mem_singleton_self _,
      View.mem_set_unit_zero hz3 inb_S1x80x80_S1x80x80_0_0_0 y⟩)).trans ?_
    rw [View.canon_unit_zero hz3]
    sl_unfold_words
    rw [View.readCov_unit_zero _ hz2, pay2_reads]
  · iexists _; isplitr
    swap; · iexact HS
    ipureintro
    sl_unfold_words
    refine (View.read_writes_eq_canon _ _ _ (fun y => ⟨_, List.mem_singleton_self _,
      View.mem_set_unit_zero hz2 inb_S80x80_S80x80_0_0 y⟩)).trans ?_
    rw [View.canon_unit_zero hz2, pay2_reads]

set_option maxHeartbeats 1000000 in
/-- A MIDDLE tile: the product is added to what the scratch held; the result window is handed back as found. -/
theorem run0_B (c : Dev nD) (i : grid0.Coords) (arg2 : Memref sig .tc .vmem S1x32x8x80x80 .f32) (harg2 : arg2.IsWhole) (arg3 : Memref sig .tc .vmem S1x32x8x80x80 .f32) (harg3 : arg3.IsWhole) (arg4 : Memref sig .tc .vmem S1x80x80 .f32) (harg4 : arg4.IsWhole) (arg5 : Memref sig .tc .vmem S80x80 .f32) (harg5 : arg5.IsWhole) (hc0 : ¬cond0_0 i) (hc1 : ¬cond0_1 i)
    (x0 x1 : Vec F S1x32x8x80x80 .f32) (d4 : Vec F S1x80x80 .f32) (xs : Vec F S80x80 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare xs
        ∗ (iprop(owns (c : Thread nD τ) arg2 fullShare x0 ∗ owns (c : Thread nD τ) arg3 fullShare x1 ∗ owns (c : Thread nD τ) arg4 fullShare d4 ∗ owns (c : Thread nD τ) arg5 fullShare (k0_pay2 x0 x1 xs)) -∗ K ⟨⟩))
      ⊢ wp frame (wpE (defs₀ (F := F)) Variants.none c none) E (cc0__qk_kernel i arg2 harg2 arg3 harg3 arg4 harg4 arg5 harg5) K := by
  simp only [cc0__qk_kernel_eq_skeleton]; unfold cc0__qk_kernel_skel
  unfold owns
  iintro ⟨⟨%f0, %hf0, H0⟩, ⟨%f1, %hf1, H1⟩, ⟨%f4, %hf4, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  · iexists _; isplitr
    swap; · iexact HS
    ipureintro
    sl_unfold_words
    refine (View.read_writes_eq_canon _ _ _ (fun y => ⟨_, List.mem_singleton_self _,
      View.mem_set_unit_zero hz2 inb_S80x80_S80x80_0_0 y⟩)).trans ?_
    rw [View.canon_unit_zero hz2, pay2_reads]

set_option maxHeartbeats 1000000 in
/-- A batch's FIRST tile (not its last): the scratch, whatever it held, is set to zero and the product is added to
    that; the result window is handed back as found. -/
theorem run0_A (c : Dev nD) (i : grid0.Coords) (arg2 : Memref sig .tc .vmem S1x32x8x80x80 .f32) (harg2 : arg2.IsWhole) (arg3 : Memref sig .tc .vmem S1x32x8x80x80 .f32) (harg3 : arg3.IsWhole) (arg4 : Memref sig .tc .vmem S1x80x80 .f32) (harg4 : arg4.IsWhole) (arg5 : Memref sig .tc .vmem S80x80 .f32) (harg5 : arg5.IsWhole) (hc0 : cond0_0 i) (hc1 : ¬cond0_1 i)
    (x0 x1 : Vec F S1x32x8x80x80 .f32) (d4 : Vec F S1x80x80 .f32) (E : Set ℕ) (K : PUnit → sProp 𝕄) :
    iprop(owns (c : Thread nD τ) arg2 fullShare x0 ∗ owns (c : Thread nD τ) arg3 fullShare x1 ∗ owns (c : Thread nD τ) arg4 fullShare d4 ∗ (∃ d, owns (c : Thread nD τ) arg5 fullShare d)
        ∗ (iprop(owns (c : Thread nD τ) arg2 fullShare x0 ∗ owns (c : Thread nD τ) arg3 fullShare x1 ∗ owns (c : Thread nD τ) arg4 fullShare d4 ∗ owns (c : Thread nD τ) arg5 fullShare (k0_pay2 x0 x1 (k0_pay1 (F := F)))) -∗ K ⟨⟩))
      ⊢ wp frame (wpE (defs₀ (F := F)) Variants.none c none) E (cc0__qk_kernel i arg2 harg2 arg3 harg3 arg4 harg4 arg5 harg5) K := by
  simp only [cc0__qk_kernel_eq_skeleton]; unfold cc0__qk_kernel_skel
  unfold owns
  iintro ⟨⟨%f0, %hf0, H0⟩, ⟨%f1, %hf1, H1⟩, ⟨%f4, %hf4, H4⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact hf4
    iexact H4
  · iexists _; isplitr
    swap; · iexact HS
    ipureintro
    sl_unfold_words
    refine (View.read_writes_eq_canon _ _ _ (fun y => ⟨_, List.mem_cons_self,
      View.mem_set_unit_zero hz2 inb_S80x80_S80x80_0_0 y⟩)).trans ?_
    rw [View.canon_cons_unit_zero hz2, View.readCov_unit_zero _ hz2, pay2_reads_zero]

end Cert.KernelIdeal.Hand

end
-- ==== Proof.KI.Body0.lean ====
/-
  The first call's body at every grid point, and the invariant's two ends.  The point's case is read off its position:
  a batch's first tile is a point ≡ 0 (mod 10), its last a point ≡ 9 (mod 10).  The invariant hands the body the
  accumulator at what the point before left (at anything before the first point) and takes it back at this point's
  contents; the other scoped buffers and the generator register pass through untouched; the core owes nothing.
-/
import proofs.«156811_j53326313947745_2_alg».proof.Proof.KI.Run0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

/-- Each input's current staging buffer holds its block at every point (both are fetched at every point; the lemma
    covers either way). -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point, by its case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt (show cfg0.N = 20 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 10 = 9
  · -- a batch's last tile
    have h0 : ¬t.val % 10 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [acc0_later V c t h0]
    rw [PhiS_castSucc V c t, PhiS_pos V c _ _ hz]
    iintro ⟨⟨⟨HS, Hrest⟩, Hg⟩, Ho, ⟨%d0, H0⟩, ⟨%d1, H1⟩, ⟨%d2, H2⟩⟩
    iapply (run0_C c (grid0.coords t) _ _ _ _ _ _ _ _ (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 10 = 0
    · -- a batch's first tile
      rw [acc0_first V c t h0]
      by_cases hz : t.val = 0
      · rw [PhiS_castSucc V c t, PhiS_zero V c _ _ hz, PhiA0_eq]
        iintro ⟨⟨⟨HS, Hrest⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS, Hrest⟩, Hg⟩, Ho, ⟨%d0, H0⟩, ⟨%d1, H1⟩, ⟨%d2, H2⟩⟩
        iapply (run0_A c (grid0.coords t) _ _ _ _ _ _ _ _ ((hcond0_0 t).mpr h0) (fun h => h1 ((hcond0_1 t).mp h)) (iblk0 V c 0 t) (iblk0 V c 1 t) _ Set.univ _)
        isplitl [H0]; · iexact H0
        isplitl [H1]; · iexact H1
        isplitl [H2]; · iexact H2
        isplitl [HS]; · iexists _; iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
    · -- a middle tile
      have hz : t.val ≠ 0 := fun e => h0 (by rw [e])
      rw [acc0_later V c t h0]
      rw [PhiS_castSucc V c t, PhiS_pos V c _ _ hz]
      iintro ⟨⟨⟨HS, Hrest⟩, Hg⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the launch hands the call is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped rest back, the accumulator's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 20 := N_0; omega
  rw [show (dat0 V c).Φ (Fin.last cfg0.N) = PhiS V c (Fin.last cfg0.N).val (Nat.le_of_lt_succ (Fin.last cfg0.N).isLt) from rfl,
    PhiS_pos V c _ _ hne, PhiA0_eq]
  iintro ⟨⟨HS, Hrest⟩, Hg⟩
  isplitl [HS Hrest]
  · isplitl [HS]
    · iexists _; iexact HS
    iexact Hrest
  iexact Hg

end Cert.KernelIdeal.Hand

end
-- ==== Proof.KI.Data1.lean ====
/-
  The second call (the weights applied to the values), as proof data at a PARAMETER `V`: the TensorCore's buffer
  contents when the call is entered.  Its grid is (batch, tile of 8 along H); at a point the body loads the batch's
  80×80 weights and the tile's block of the values, and stores the product, re-laid, into the tile's block of the
  result.  No point keeps anything for a later one.
-/
import proofs.«156811_j53326313947745_2_alg».proof.Proof.Gen.KernelIdeal.Launch
import proofs.«156811_j53326313947745_2_alg».proof.Proof.Gen.KernelIdeal.Skeleton
import proofs.«156811_j53326313947745_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1×80×80 buffer and the whole 1×32×8×80×80 buffer, as the body's accesses name them. -/
abbrev r1_att : Rect S1x80x80 := Rect.unit (s := S1x80x80) ![0, 0, 0] S1x80x80.size inb_S1x80x80_S1x80x80_0_0_0
abbrev r1_blk : Rect S1x32x8x80x80 := Rect.unit (s := S1x32x8x80x80) ![0, 0, 0, 0, 0] S1x32x8x80x80.size inb_S1x32x8x80x80_S1x32x8x80x80_0_0_0_0_0

/-- What the body leaves in the result window's buffer: its one store, of the product of the weights' block with the
    values' block. -/
def out1_2 (x0 : Vec F S1x80x80 .f32) (x1 : Vec F S1x32x8x80x80 .f32) : Vec F S1x32x8x80x80 .f32 :=
  View.canon [⟨r1_blk, k1_pay1 (View.ld x0 r1_att) (View.ld x1 r1_blk)⟩]

/-- The proof data of the second call on core `c`: the arrays as the call finds them; after the body at point `t` each
    input's buffer at its block and the result's at `out1_2` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

end Cert.KernelIdeal.Hand

end
-- ==== Proof.KI.Body1.lean ====
/-
  The second call's body at every grid point.  At a point the body reads the batch's 80×80 weights and the tile's
  block of the values, reads the result window's buffer too (and makes no use of what it read), and stores the
  product, re-laid, over the whole of the result window's buffer.  The weights' block depends on the batch alone, so
  the pipeline moves it only at a batch's first tile; at the other nine tiles the buffer still holds it.
-/
import proofs.«156811_j53326313947745_2_alg».proof.Proof.KI.Data1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the two input windows' buffers -/

/-- The weights' buffer holds the batch's weights at every point, for any proof data whose array is the entry
    contents' and whose body leaves the block in place.  The window is moved only where the batch changes (the
    points ≡ 0 mod 10); at a point where it is not moved its block index is the one of the point before, whose
    block is therefore this point's.  The window is an input, is never idle and is never cut. -/
theorem weights_before_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- The values' buffer holds the tile's block at every point: this window is moved at every point. -/
theorem values_before_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  weights_before_of V (dat1 V c) (A_eq1 V c 0) (after1_0 V c) t d
theorem before1_1 (c : Dev nD) (t : Fin cfg1.N) (d) : (dat1 V c).before 1 t d = iblk1 V c 1 t :=
  values_before_of V (dat1 V c) (A_eq1 V c 1) (after1_1 V c) t d

/-! ## The body's one store covers the result window's buffer -/

/-- The store's rectangle is the whole 1×32×8×80×80 buffer. -/
theorem cover1_2 (p0 : Vec F S1x32x8x80x80 .f32) (y : S1x32x8x80x80.Idx) :
    ∃ pc ∈ ([⟨r1_blk, p0⟩] : List (View.Piece (Elt F) S1x32x8x80x80 .f32)), y ∈ pc.1.set :=
  View.cover_of_tiled [⟨r1_blk, p0⟩] S1x32x8x80x80.size (by rfl) y

/-! ## The body's triple -/

set_option maxHeartbeats 1000000 in
/-- The body on whole buffers, the weights' reading `x0`, the values' reading `x1` and the result's at anything,
    runs to the continuation with the two inputs as they were and the result's buffer at `out1_2 x0 x1`: the two
    loads read `x0` and `x1` whole, the third load's value goes nowhere, and the store writes every entry. -/
theorem sound_kernel1 (c : Dev nD) (E : Set ℕ) (i : grid1.Coords)
    (arg2 : Memref sig .tc .vmem S1x80x80 .f32) (harg2 : arg2.IsWhole)
    (arg3 : Memref sig .tc .vmem S1x32x8x80x80 .f32) (harg3 : arg3.IsWhole)
    (arg4 : Memref sig .tc .vmem S1x32x8x80x80 .f32) (harg4 : arg4.IsWhole)
    (x0 : Vec F S1x80x80 .f32) (x1 : Vec F S1x32x8x80x80 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__av_kernel i arg2 harg2 arg3 harg3 arg4 harg4) K := by
  simp only [cc1__av_kernel_eq_skeleton]; unfold cc1__av_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation -/

/-- What the body is called with at point `t`, the three windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two inputs' buffers hold their blocks, so the triple applies; the invariant (the same
    at every point) and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  THE RUN.  The program is three segments in order: the first call (the logits, accumulated tile by tile), the fourteen
  host operations of the softmax, the second call (the weights applied to the values).  The buffers' contents at the
  four boundaries are a fold from the launch memory: a call leaves its arrays at what its write-backs make of them and
  every other buffer as it found it; the host stretch leaves what running its operations gives.  No segment writes an
  argument, so the fold read at an argument walks back to the launch memory.
-/
import proofs.«156811_j53326313947745_2_alg».proof.Proof.KI.Body0
import proofs.«156811_j53326313947745_2_alg».proof.Proof.KI.Body1
import proofs.«156811_j53326313947745_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- Core `c`'s buffers at launch: what the first call is entered from. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- After the first call: its three arrays at what the write-backs of all twenty points leave (the two inputs as
    entered, the logits written once per batch), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At the first call's exit each of its arrays holds what the pipeline leaves, and every other buffer what it held
    at entry. -/
theorem left0 (c : Dev nD) (w : Fin cfg0.W) : (dat0 (V0 m ρ) c).arrAt w cfg0.N = V1 m ρ c (Pipeline.arrRef spec0 w) :=
  (W1_arr m ρ c w).symm
theorem kept0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the softmax's host operations: what the second call is entered from. -/
abbrev W2 : Dev nD → Valuation τ sig (Elt F) := fun c => StableHlo.after hostOps1 (W1 m ρ c)
/-- The same read at the TensorCore's references. -/
abbrev V2 : (c : Dev nD) → (b : Ref sig .tc) → Buf (Elt F) ((c : Thread nD τ).loc b) := fun c b => W2 m ρ c b
/-- After the second call: its three arrays at what the write-backs leave (the weights and the values as entered, the
    result written block by block), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem left1 (c : Dev nD) (w : Fin cfg1.W) : (dat1 (V2 m ρ) c).arrAt w cfg1.N = V3 m ρ c (Pipeline.arrRef spec1 w) :=
  (W3_arr m ρ c w).symm
theorem kept1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched

The first two arguments are input windows of the first call and no array of the second; the third is no array of the
first call and an input window of the second; the host operations write none of the three. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) :=
        (W1_arr m ρ c 1).trans (((dat0 (V0 m ρ) c).arrAt_in 1 rfl _).trans (A_eq0 (V0 m ρ) c 1))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) :=
        (W3_arr m ρ c 1).trans (((dat1 (V2 m ρ) c).arrAt_in 1 rfl _).trans (A_eq1 (V2 m ρ) c 1))
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

/-! ## The proof data of both calls, and what rides beside the buffers -/

/-- Both calls' proof data, each at the contents its call is entered from: a literal match on the call's index. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c

abbrev plain : Variants := Variants.none
/-- No core owes another anything, so no level is assigned. -/
abbrev noDues : GSem nD τ sig → Finset Unit := fun _ => ∅
abbrev noLevel : GSem nD τ sig → Unit → ℕ := fun _ _ => 0
/-- Beside the buffers every segment carries the core's generator register at some state and its dues, at nothing. -/
abbrev beside (c : Dev nD) : sProp 𝕄 :=
  iprop((∃ r, prngReg c r) ∗ ∃ W, owes (c : Thread nD τ) (0 : CellTallies nD τ sig Unit) W)

/-- A stretch of host operations as a segment: from every unscoped buffer at `W` to every unscoped buffer at what the
    operations make of `W`, `beside` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ plain noDues noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at `W3`, the generator register at some state. -/
abbrev atEnd (c : Dev nD) : sProp 𝕄 :=
  iprop(StableHlo.held (c : Thread nD τ) (Pipeline.ucRefs τ sig) (W3 m ρ c) ∗ ∃ r, prngReg c r)

/-! ## The two calls as segments -/

set_option backward.isDefEq.respectTransparency.types false in
/-- THE FIRST CALL, entered from every unscoped buffer at `W0` and left at `W1`.  Its three arrays are split out of
    the unscoped buffers and put back at the exit contents.  The generator register and the scoped rest make the
    class's invariant, which is what the accumulator's invariant is before the first point; after the last point the
    accumulator's invariant gives the class's back, the accumulator's contents forgotten. -/
def reg0 : Pipeline.RegionSeg (pcfgs (F := F)) adm (pdats m ρ) () defs₀ plain noDues noLevel 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ noDues noLevel 0 fun _ _ => rfl
  pre c := iprop(StableHlo.held (c : Thread nD τ) (Pipeline.ucRefs τ sig) (W0 m ρ c) ∗ beside c)
  post c := iprop(StableHlo.held (c : Thread nD τ) (Pipeline.ucRefs τ sig) (W1 m ρ c) ∗ beside c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL, entered from every unscoped buffer at `W2` and left at `W3` (what the launch reads at the end).
    Its invariant is the class's at every point: the generator register and the scoped rest go in and come back. -/
def reg1 : Pipeline.RegionSeg (pcfgs (F := F)) adm (pdats m ρ) () defs₀ plain noDues noLevel 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ noDues noLevel 1 fun _ _ => rfl
  pre c := iprop(StableHlo.held (c : Thread nD τ) (Pipeline.ucRefs τ sig) (W2 m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

/-- The three segments in order: no host operation stands before the first call or after the second. -/
abbrev segs : List (Pipeline.Seg (pcfgs (F := F)) adm (pdats m ρ) () defs₀ plain noDues noLevel) :=
  [ .region (reg0 m ρ),
    .host (hseg hostOps1 hostOps1_sub hostOps1_fresh (W1 m ρ)),
    .region (reg1 m ρ) ]

/-- The program is the run of its segments: it is the chain of the two calls around the host stretch, and so is the
    segments' run. -/
theorem main_run (c : Dev nD) : main (F := F) c = Pipeline.Seg.run (segs m ρ) := (main_chain c).trans (by chain_rfl)

set_option backward.isDefEq.respectTransparency.types false in
/-- From any memory with zero counters every weakly fair execution of the program on the TensorCores terminates, and
    every final memory holds, on every core, every unscoped buffer at the fold's last contents `W3`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W3 m ρ c b) :=
  Pipeline.θ_run_regions_kit (pcfgs (F := F)) adm (pdats m ρ) () cellOf_inj emb₁ defs₀ plain noDues noLevel m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := atEnd m ρ)
    (hch := ⟨fun _ => .rfl, fun _ => .rfl, fun _ => .rfl, fun _ => .rfl⟩)
    (hinit := by
      refine Pipeline.initEach noDues noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

/-- The frame: every argument array ends holding what it was launched with. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c)⟩) (run_all m ρ)

end Cert.KernelIdeal.Hand

end
-- ==== Proof.Spec.lean ====
/-
  The function both programs compute, index by index, on the extended reals.

  The arguments are arrays over [B, C, H, W, D] = [2, 32, 80, 80, 80].  Row `w` of batch `b` of an argument is read as a
  vector of 204800 features: feature `k = h * 2560 + c * 80 + d` is the entry at `(b, c, h, w, d)`.  The logits are the
  unscaled inner products of the rows of the first argument with the rows of the second,
  `L (b, w, v) = ∑ k, x (b, w; k) * y (b, v; k)`; the attention weights are the softmax of the logits along `v`
  (one fixed composition of host operations, never opened); the result is `∑ v, att (b, w, v) * g (b, c, h, v, d)`.
-/
import Idealize.ShloMosaic.PureOps
import Idealize.ShloMosaic.PureOps.Ideal
import Idealize.ShloMosaic.Lib.ValueIdx

noncomputable section

namespace Cert.Attn

open Idealize.ShloMosaic Idealize.ShloMosaic.ValueIdx

/-- The arguments' and the result's shape, [B, C, H, W, D]. -/
abbrev SA : Shape := ⟨5, ![2, 32, 80, 80, 80]⟩
/-- The logits' and the weights' shape, [B, W, W]. -/
abbrev SL : Shape := ⟨3, ![2, 80, 80]⟩
/-- The row statistics' shapes. -/
abbrev SR : Shape := ⟨2, ![2, 80]⟩
abbrev SR1 : Shape := ⟨3, ![2, 80, 1]⟩
abbrev S0 : Shape := ⟨0, ![]⟩

/-- Feature `k = h * 2560 + c * 80 + d` of row `w` of batch `b`: the entry at `(b, c, h, w, d)`. -/
def feat (x : SA.Idx → EReal) (b : Fin 2) (w : Fin 80) (k : Fin 204800) : EReal :=
  x (ix5 b (⟨k.val / 80 % 32, Nat.mod_lt _ (by decide)⟩ : Fin 32) (⟨k.val / 2560, by have := k.isLt; omega⟩ : Fin 80) w
    (⟨k.val % 80, Nat.mod_lt _ (by decide)⟩ : Fin 80))

/-- The logit of query row `w` against key row `v` in batch `b`: the inner product over all 204800 features. -/
def logitsAt (x y : SA.Idx → EReal) (b : Fin 2) (w v : Fin 80) : EReal :=
  ∑ k : Fin 204800, feat x b w k * feat y b v k

/-- The logits as an array. -/
def logits (x y : SA.Idx → EReal) : SL.Idx → EReal := fun i => logitsAt x y (i 0) (i 1) (i 2)

/-- The result at `(b, c, h, w, d)`: the weights of row `w` against the values at `(b, c, h, ·, d)`. -/
def outAt (att : SL.Idx → EReal) (g : SA.Idx → EReal) (b : Fin 2) (c : Fin 32) (h w d : Fin 80) : EReal :=
  ∑ v : Fin 80, att (ix3 b w v) * g (ix5 b c h v d)

/-- The result as an array. -/
def out (att : SL.Idx → EReal) (g : SA.Idx → EReal) : SA.Idx → EReal :=
  fun j => outAt att g (j 0) (j 1) (j 2) (j 3) (j 4)

/-- The shape relations the softmax's host operations state (each program states them as facts of its own; as
    propositions, any two witnesses are equal). -/
structure SoftFacts : Prop where
  red : SL.ReducesTo [2] SR
  h0 : 0 < S0.numel
  b0 : S0.BroadcastsInDim SR (![] : Fin 0 → Fin SR.rank)
  b1 : SR.BroadcastsInDim SR1 (![0, 1] : Fin 2 → Fin SR1.rank)
  b2 : SR1.BroadcastsInDim SL (![0, 1, 2] : Fin 3 → Fin SL.rank)

/-- The row maximum (from minus infinity), joined once more with minus infinity, as the host computes it. -/
def rowMax (hf : SoftFacts) (L : FVec Ideal SL .f32) : FVec Ideal SR .f32 :=
  maximumf (broadcastInDim SR ![] hf.b0 (constant (F := Ideal) S0 .f32 0xFF800000#32))
    (Host.reduce (FloatOps.maximumf (F := Ideal) (φ := .f32)) L (constant (F := Ideal) S0 .f32 0xFF800000#32) hf.red hf.h0)

/-- The exponentials of the logits less their row maximum. -/
def expShift (hf : SoftFacts) (L : FVec Ideal SL .f32) : FVec Ideal SL .f32 :=
  Host.exp (F := Ideal) (subf L (broadcastInDim SL ![0, 1, 2] hf.b2 (broadcastInDim SR1 ![0, 1] hf.b1 (rowMax hf L))))

/-- The softmax along the last axis, operation for operation as both programs' host lines compute it: the
    exponentials divided by their row sums (from zero). -/
def soft (hf : SoftFacts) (L : FVec Ideal SL .f32) : FVec Ideal SL .f32 :=
  Host.divf (F := Ideal) (expShift hf L)
    (broadcastInDim SL ![0, 1, 2] hf.b2 (broadcastInDim SR1 ![0, 1] hf.b1
      (Host.reduceAdd (F := Ideal) (expShift hf L) (constant (F := Ideal) S0 .f32 0x00000000#32) hf.red hf.h0)))

/-- The whole result: the weights from the logits of the first two arguments, applied to the third. -/
def result (hf : SoftFacts) (x y g : SA.Idx → EReal) : SA.Idx → EReal :=
  out (soft hf (logits x y)) g

end Cert.Attn

end
-- ==== Proof.LibRowDot.lean ====
/-
  A matrix product whose right operand is contracted on its last axis, read at an index on the extended reals.

  For an `M×K` by `N×K` contraction (left axis 1 against right axis 1, no batch axis) the element at `(r, c)` of
  a matrix-unit product into a zero accumulator is the sum over `k : Fin K` of `l (r, k) * w (c, k)`: a row of the
  left operand against a ROW of the right operand. The contraction's one-axis index type is re-indexed by its
  single coordinate.
-/
import Idealize.ShloMosaic.PureOps.Ideal.Laws
import Idealize.ShloMosaic.Lib.ValueIdx

noncomputable section

namespace Cert.RowDot

open Idealize.ShloMosaic Idealize.ShloMosaic.ValueIdx

/-- The contraction sum of an `M×K` by `N×K` product (right operand contracted on its last axis) at output
    index `j`, over `Fin K`. -/
theorem contr_sum (M K N : Nat) (l : (⟨2, ![M, K]⟩ : Shape).Idx → EReal) (w : (⟨2, ![N, K]⟩ : Shape).Idx → EReal)
    (j : (⟨2, ![M, N]⟩ : Shape).Idx) :
    (∑ q : (DotDims.transposedRhs M K N).contr.Idx,
        l ((DotDims.transposedRhs M K N).lhsIdx j q) * w ((DotDims.transposedRhs M K N).rhsIdx j q))
      = ∑ k : Fin K, l (ix2 (j 0) k) * w (ix2 (j 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k)
      = ix2 (j 0) k :=
    funext fun a => Fin.ext (by
      match a with
      | ⟨0, _⟩ => rfl
      | ⟨1, _⟩ => exact hk)
  have er : (DotDims.transposedRhs M K N).rhsIdx j ((contrEquiv1 (DotDims.transposedRhs M K N) K rfl rfl).symm k)
      = ix2 (j 1) k :=
    funext fun a => Fin.ext (by
      match a with
      | ⟨0, _⟩ => rfl
      | ⟨1, _⟩ => exact hk)
  rw [el, er]
  rfl

/-- A matrix-unit product of a left operand against the rows of the right operand, into the zero accumulator,
    at an index. -/
theorem matmul_zero_apply (M K N : Nat) {φ₁ φ₂ : FTy} (prec : Option ContractPrecision)
    (l : FVec Ideal (⟨2, ![M, K]⟩ : Shape) φ₁) (w : FVec Ideal (⟨2, ![N, K]⟩ : Shape) φ₂) (j : (⟨2, ![M, N]⟩ : Shape).Idx) :
    FloatOps.matmul (DotDims.transposedRhs M K N) prec l w (constant (⟨2, ![M, N]⟩ : Shape) .f32 0x00000000#32) j
      = ∑ k : Fin K, l (ix2 (j 0) k) * w (ix2 (j 1) k) :=
  (Ideal.matmul_constant_zero_apply (DotDims.transposedRhs M K N) prec l w j).trans (contr_sum M K N l w j)

end Cert.RowDot

end
-- ==== Proof.KI.Pay0.lean ====
/-
  The first call's three stored values read at an index on the extended reals, and the logit as a sum of ten tiles.

  A tile's two blocks are [1, 32, 8, 80, 80] = [1, C, 8, W, D].  The body drops the unit axis, moves W to the front
  and flattens the rest, so that row `w` of the re-laid block holds the 20480 features `f = th * 2560 + c * 80 + d`,
  the block's entries at `(0, c, th, w, d)`.  The matrix product of the two re-laid blocks, rows against rows, is then
  the inner product of row `w` of the first with row `v` of the second over the tile's features, and the body adds it
  to the accumulator.  Separately, and with no program in sight, the logit of the specification — one sum over all
  204800 features — is regrouped into the ten tiles' sums.
-/
import proofs.«156811_j53326313947745_2_alg».proof.Proof.KI.Data0
import proofs.«156811_j53326313947745_2_alg».proof.Proof.Spec
import proofs.«156811_j53326313947745_2_alg».proof.Proof.LibRowDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The payloads of the first call at an index -/

/-- The value the accumulator is set to at a batch's first tile: zero everywhere. -/
theorem pay1_apply (w v : Fin 80) : k0_pay1 (F := Ideal) (ix2 w v) = 0 := by
  unfold k0_pay1
  rw [shapeCast_self]
  exact Ideal.ofBits_zero_f32

/-- The tile's block re-laid as 80 rows of 20480 features: row `w`, feature `f = th * 2560 + c * 80 + d` is the block's
    entry at `(0, c, th, w, d)`.  The cast to rows keeps the row-major position, `((w * 8 + th) * 32 + c) * 80 + d`;
    the transposition exchanges the axes of `c` and `w`; the first cast drops the leading unit axis. -/
theorem relaid_apply {α : Type} (xb : S1x32x8x80x80.Idx → α) (w : Fin 80) (f : Fin 20480) :
    shapeCast S80x20480
        (transpose S80x8x32x80 [2, 1, 0, 3]
          (shapeCast S32x8x80x80 xb shapeCasts_S1x32x8x80x80_S32x8x80x80)
          transposes_S32x8x80x80_p2_1_0_3_S80x8x32x80)
        shapeCasts_S80x8x32x80_S80x20480 (ix2 w f)
      = xb (ix5 (0 : Fin 1) (⟨f.val / 80 % 32, Nat.mod_lt _ (by decide)⟩ : Fin 32)
          (⟨f.val / 2560, by have := f.isLt; omega⟩ : Fin 8) w (⟨f.val % 80, Nat.mod_lt _ (by decide)⟩ : Fin 80)) := by
  refine (shapeCast_apply _ _ (ix2 w f)
    (ix4 w (⟨f.val / 2560, by have := f.isLt; omega⟩ : Fin 8) (⟨f.val / 80 % 32, Nat.mod_lt _ (by decide)⟩ : Fin 32)
      (⟨f.val % 80, Nat.mod_lt _ (by decide)⟩ : Fin 80)) ?_).trans ?_
  · rw [Shape.rowMajor_val_four, Shape.rowMajor_val_two]
    show ((w.val * 8 + f.val / 2560) * 32 + f.val / 80 % 32) * 80 + f.val % 80 = w.val * 20480 + f.val
    have := f.isLt
    omega
  refine (transpose_apply _ _ _ _
    (ix4 (⟨f.val / 80 % 32, Nat.mod_lt _ (by decide)⟩ : Fin 32) (⟨f.val / 2560, by have := f.isLt; omega⟩ : Fin 8) w
      (⟨f.val % 80, Nat.mod_lt _ (by decide)⟩ : Fin 80))
    fun c => match c with | ⟨0, _⟩ => rfl | ⟨1, _⟩ => rfl | ⟨2, _⟩ => rfl | ⟨3, _⟩ => rfl).trans ?_
  refine shapeCast_apply _ _ _ _ ?_
  rw [Shape.rowMajor_val_five, Shape.rowMajor_val_four]
  show ((((0 : Fin 1).val * 32 + f.val / 80 % 32) * 8 + f.val / 2560) * 80 + w.val) * 80 + f.val % 80
    = ((f.val / 80 % 32 * 8 + f.val / 2560) * 80 + w.val) * 80 + f.val % 80
  simp

/-- What a tile leaves in the accumulator: what was there, plus the inner products of the rows of the first block
    with the rows of the second over the tile's 20480 features. -/
theorem pay2_apply (xb yb : Vec Ideal S1x32x8x80x80 .f32) (a : Vec Ideal S80x80 .f32) (w v : Fin 80) :
    k0_pay2 xb yb a (ix2 w v)
      = a (ix2 w v) + ∑ f : Fin 20480,
          xb (ix5 (0 : Fin 1) (⟨f.val / 80 % 32, Nat.mod_lt _ (by decide)⟩ : Fin 32)
              (⟨f.val / 2560, by have := f.isLt; omega⟩ : Fin 8) w (⟨f.val % 80, Nat.mod_lt _ (by decide)⟩ : Fin 80))
            * yb (ix5 (0 : Fin 1) (⟨f.val / 80 % 32, Nat.mod_lt _ (by decide)⟩ : Fin 32)
              (⟨f.val / 2560, by have := f.isLt; omega⟩ : Fin 8) v (⟨f.val % 80, Nat.mod_lt _ (by decide)⟩ : Fin 80)) := by
  unfold k0_pay2
  rw [shapeCast_self]
  refine (addf_apply _ _ _).trans ?_
  refine congrArg (a (ix2 w v) + ·) ?_
  refine (Cert.RowDot.matmul_zero_apply 80 20480 80 (some .fp32) _ _ (ix2 w v)).trans ?_
  refine Finset.sum_congr rfl fun f _ => ?_
  exact congrArg₂ (· * ·) (relaid_apply xb w f) (relaid_apply yb v f)

/-- What the last tile stores in the result window: the accumulator under a leading unit axis. -/
theorem pay3_apply (a : Vec Ideal S80x80 .f32) (w v : Fin 80) : k0_pay3 a (ix3 0 w v) = a (ix2 w v) := by
  unfold k0_pay3
  exact shapeCast_ab_1ab_apply a _ 0 w v

/-! ## The logit as a sum of ten tiles

The 204800 features of a row are cut into ten runs of 20480: feature `k = a * 20480 + f` has `h = k / 2560 = a * 8 + f / 2560`,
so run `a` is the tile of the eight `h` from `a * 8`.  The logit is the sum of the ten runs' inner products: a
re-indexing of one finite sum in a commutative monoid. -/

/-- The inner product of row `w` of `x` with row `v` of `y` over the features of run `a` (zero past the last feature). -/
def tile (x y : Cert.Attn.SA.Idx → EReal) (b : Fin 2) (w v : Fin 80) (a : ℕ) : EReal :=
  ∑ f : Fin 20480,
    if h : a * 20480 + f.val < 204800 then
      Cert.Attn.feat x b w ⟨a * 20480 + f.val, h⟩ * Cert.Attn.feat y b v ⟨a * 20480 + f.val, h⟩
    else 0

/-- Feature `a * 20480 + f` by coordinates: channel `f / 80 % 32`, height `a * 8 + f / 2560`, depth `f % 80`. -/
theorem feat_run (x : Cert.Attn.SA.Idx → EReal) (b : Fin 2) (w : Fin 80) (a : ℕ) (ha : a < 10) (f : Fin 20480)
    (h : a * 20480 + f.val < 204800) :
    Cert.Attn.feat x b w ⟨a * 20480 + f.val, h⟩
      = x (ix5 b (⟨f.val / 80 % 32, Nat.mod_lt _ (by decide)⟩ : Fin 32)
          (⟨a * 8 + f.val / 2560, by have := f.isLt; omega⟩ : Fin 80) w (⟨f.val % 80, Nat.mod_lt _ (by decide)⟩ : Fin 80)) := by
  unfold Cert.Attn.feat
  have e1 : (⟨(a * 20480 + f.val) / 80 % 32, Nat.mod_lt _ (by decide)⟩ : Fin 32)
      = ⟨f.val / 80 % 32, Nat.mod_lt _ (by decide)⟩ := Fin.ext (by show (a * 20480 + f.val) / 80 % 32 = f.val / 80 % 32; omega)
  have e2 : (⟨(a * 20480 + f.val) / 2560, by omega⟩ : Fin 80)
      = ⟨a * 8 + f.val / 2560, by have := f.isLt; omega⟩ := Fin.ext (by show (a * 20480 + f.val) / 2560 = a * 8 + f.val / 2560; omega)
  have e3 : (⟨(a * 20480 + f.val) % 80, Nat.mod_lt _ (by decide)⟩ : Fin 80)
      = ⟨f.val % 80, Nat.mod_lt _ (by decide)⟩ := Fin.ext (by show (a * 20480 + f.val) % 80 = f.val % 80; omega)
  show x (ix5 b (⟨(a * 20480 + f.val) / 80 % 32, _⟩ : Fin 32) (⟨(a * 20480 + f.val) / 2560, _⟩ : Fin 80) w
      (⟨(a * 20480 + f.val) % 80, _⟩ : Fin 80)) = _
  rw [e1, e2, e3]

/-- The logit is the sum of its ten runs. -/
theorem logitsAt_tiles (x y : Cert.Attn.SA.Idx → EReal) (b : Fin 2) (w v : Fin 80) :
    Cert.Attn.logitsAt x y b w v = ∑ a ∈ Finset.range 10, tile x y b w v a := by
  unfold Cert.Attn.logitsAt
  rw [← Fin.sum_univ_eq_sum_range (fun a => tile x y b w v a) 10,
    ← Equiv.sum_comp (finProdFinEquiv : Fin 10 × Fin 20480 ≃ Fin 204800), Fintype.sum_prod_type]
  refine Finset.sum_congr rfl fun a _ => ?_
  unfold tile
  refine Finset.sum_congr rfl fun f _ => ?_
  have h : a.val * 20480 + f.val < 204800 := by have := a.isLt; have := f.isLt; omega
  have e : (finProdFinEquiv (a, f) : Fin 204800) = ⟨a.val * 20480 + f.val, h⟩ :=
    Fin.ext (by show f.val + 20480 * a.val = a.val * 20480 + f.val; omega)
  rw [dif_pos h, e]

end Cert.KernelIdeal.Hand

end
-- ==== Proof.KI.Blocks0.lean ====
/-
  The first call's blocks and its result array.

  The grid's point t is batch t / 10 and tile t % 10 of 8 along H.  Each argument's block at t is the array read at that
  batch and at the tile's eight rows: entry (0, c, th, w, d) of the block is entry (t / 10, c, (t % 10) * 8 + th, w, d) of the
  array.  The result window's block is one batch's 80×80 square, at block index (t / 10, 0, 0), and it is written back
  only at a batch's last tile (t % 10 = 9); the two squares written back, at t = 9 and t = 19, are the two batches, so
  they cover the result array: if at those two points the window's buffer holds the batch's square of one function,
  the array ends at that function.
-/
import proofs.«156811_j53326313947745_2_alg».proof.Proof.KI.Data0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the TensorCore's buffer contents when the call is entered
variable (V : (c : Dev nD) → (b : Ref sig .tc) → Buf (Elt Ideal) ((c : Thread nD τ).loc b))

/-- The three index maps, decided over the grid: point t is batch t / 10, tile t % 10; the arguments' blocks move
    with the batch (axis B) and the tile (axis H), the result's block with the batch only. -/
theorem idx_facts0 : ∀ t : Fin cfg0.N,
    win0_0.index t (0 : Fin 5) = t.val / 10 ∧ win0_0.index t (1 : Fin 5) = 0 ∧ win0_0.index t (2 : Fin 5) = t.val % 10
    ∧ win0_0.index t (3 : Fin 5) = 0 ∧ win0_0.index t (4 : Fin 5) = 0
    ∧ win0_1.index t (0 : Fin 5) = t.val / 10 ∧ win0_1.index t (1 : Fin 5) = 0 ∧ win0_1.index t (2 : Fin 5) = t.val % 10
    ∧ win0_1.index t (3 : Fin 5) = 0 ∧ win0_1.index t (4 : Fin 5) = 0
    ∧ win0_2.index t (0 : Fin 3) = t.val / 10 ∧ win0_2.index t (1 : Fin 3) = 0 ∧ win0_2.index t (2 : Fin 3) = 0 :=
  (by decide +kernel : ∀ t : Fin grid0.N, _)

/-- The first argument's block at point t = (batch t / 10, tile t % 10): entry (0, c', th, w, d) is the array's entry
    (t / 10, c', (t % 10) * 8 + th, w, d). -/
theorem blk0_x (c : Dev nD) (t : Fin cfg0.N) (c' : Fin 32) (th : Fin 8) (w d : Fin 80) :
    (iblk0 (F := Ideal) V c 0 t : Vec Ideal S1x32x8x80x80 .f32) (ix5 (0 : Fin 1) c' th w d)
      = (V c main_arg0 : S2x32x80x80x80.Idx → Elt Ideal .f32)
          (ix5 (⟨t.val / 10, by have := Nat.lt_of_lt_of_eq t.isLt N_0; omega⟩ : Fin 2) c'
            (⟨t.val % 10 * 8 + th.val, by have := th.isLt; omega⟩ : Fin 80) w d) := by
  obtain ⟨e0, e1, e2, e3, e4, -⟩ := idx_facts0 t
  unfold iblk0
  rw [View.read_apply]
  show V c main_arg0 _ = V c main_arg0 _
  congr 1
  funext a
  apply Fin.ext
  match a with
  | ⟨0, _⟩ => show win0_0.index t (0 : Fin 5) * 1 + 1 * 0 = t.val / 10; rw [e0]; omega
  | ⟨1, _⟩ => show win0_0.index t (1 : Fin 5) * 32 + 1 * c'.val = c'.val; rw [e1]; omega
  | ⟨2, _⟩ => show win0_0.index t (2 : Fin 5) * 8 + 1 * th.val = t.val % 10 * 8 + th.val; rw [e2]; omega
  | ⟨3, _⟩ => show win0_0.index t (3 : Fin 5) * 80 + 1 * w.val = w.val; rw [e3]; omega
  | ⟨4, _⟩ => show win0_0.index t (4 : Fin 5) * 80 + 1 * d.val = d.val; rw [e4]; omega

/-- The second argument's block at point t, likewise. -/
theorem blk0_y (c : Dev nD) (t : Fin cfg0.N) (c' : Fin 32) (th : Fin 8) (w d : Fin 80) :
    (iblk0 (F := Ideal) V c 1 t : Vec Ideal S1x32x8x80x80 .f32) (ix5 (0 : Fin 1) c' th w d)
      = (V c main_arg1 : S2x32x80x80x80.Idx → Elt Ideal .f32)
          (ix5 (⟨t.val / 10, by have := Nat.lt_of_lt_of_eq t.isLt N_0; omega⟩ : Fin 2) c'
            (⟨t.val % 10 * 8 + th.val, by have := th.isLt; omega⟩ : Fin 80) w d) := by
  obtain ⟨-, -, -, -, -, e0, e1, e2, e3, e4, -⟩ := idx_facts0 t
  unfold iblk0
  rw [View.read_apply]
  show V c main_arg1 _ = V c main_arg1 _
  congr 1
  funext a
  apply Fin.ext
  match a with
  | ⟨0, _⟩ => show win0_1.index t (0 : Fin 5) * 1 + 1 * 0 = t.val / 10; rw [e0]; omega
  | ⟨1, _⟩ => show win0_1.index t (1 : Fin 5) * 32 + 1 * c'.val = c'.val; rw [e1]; omega
  | ⟨2, _⟩ => show win0_1.index t (2 : Fin 5) * 8 + 1 * th.val = t.val % 10 * 8 + th.val; rw [e2]; omega
  | ⟨3, _⟩ => show win0_1.index t (3 : Fin 5) * 80 + 1 * w.val = w.val; rw [e3]; omega
  | ⟨4, _⟩ => show win0_1.index t (4 : Fin 5) * 80 + 1 * d.val = d.val; rw [e4]; omega

/-! ## From the blocks to the array -/

/-- An index of the result array is in point t's block iff each coordinate is in the block's range on its axis. -/
theorem mem_blk0 (t : Fin cfg0.N) (i : S2x80x80.Idx) :
    i ∈ ((cfg0.win 2).blk t).view.set ↔ ∀ a : Fin 3, win0_2.index t a * S1x80x80.size a ≤ (i a).val
      ∧ (i a).val < win0_2.index t a * S1x80x80.size a + S1x80x80.size a := by
  show i ∈ ((View.whole main_v0).slice (win0_2.rect t)).set ↔ _
  rw [View.set_slice_whole, Rect.mem_set_unit]
  exact Iff.rfl

/-- Every index (b, w, v) of the result array is in the block of its batch's last tile, the point 10 * b + 9, which
    writes back. -/
theorem cover0 (i : S2x80x80.Idx) :
    ∃ t : Fin cfg0.N, (cfg0.win 2).flush t = true ∧ i ∈ ((cfg0.win 2).blk t).view.set := by
  have h0 : (i 0).val < 2 := (i 0).isLt
  have h1 : (i 1).val < 80 := (i 1).isLt
  have h2 : (i 2).val < 80 := (i 2).isLt
  obtain ⟨t, ht⟩ : ∃ t : Fin cfg0.N, t.val = 10 * (i 0).val + 9 :=
    ⟨⟨10 * (i 0).val + 9, by rw [show cfg0.N = 20 from N_0]; omega⟩, rfl⟩
  obtain ⟨-, -, -, -, -, -, -, -, -, -, e0, e1, e2⟩ := idx_facts0 t
  refine ⟨t, (flush0_2 t).mpr (by omega), ?_⟩
  rw [mem_blk0]
  intro a
  match a with
  | ⟨0, _⟩ => show win0_2.index t (0 : Fin 3) * 1 ≤ (i 0).val ∧ (i 0).val < win0_2.index t (0 : Fin 3) * 1 + 1; rw [e0, ht]; omega
  | ⟨1, _⟩ => show win0_2.index t (1 : Fin 3) * 80 ≤ (i 1).val ∧ (i 1).val < win0_2.index t (1 : Fin 3) * 80 + 80; rw [e1]; omega
  | ⟨2, _⟩ => show win0_2.index t (2 : Fin 3) * 80 ≤ (i 2).val ∧ (i 2).val < win0_2.index t (2 : Fin 3) * 80 + 80; rw [e2]; omega

/-- FROM BLOCKS TO THE ARRAY for the result window: its block is one batch's square at block index (t / 10, 0, 0),
    written back only at the points with t % 10 = 9.  If at every such point the window's buffer holds the batch's
    rows of one function G, the array ends at G. -/
theorem arr_of_flushed (c : Dev nD) (G : S2x80x80.Idx → EReal)
    (h : ∀ t : Fin cfg0.N, t.val % 10 = 9 → ∀ w v : Fin 80,
      ((dat0 (F := Ideal) V c).after 2 t : Vec Ideal S1x80x80 .f32) (ix3 (0 : Fin 1) w v)
        = G (ix3 (⟨t.val / 10, by have := Nat.lt_of_lt_of_eq t.isLt N_0; omega⟩ : Fin 2) w v)) :
    (dat0 (F := Ideal) V c).arrAt 2 cfg0.N = G := by
  refine (dat0 (F := Ideal) V c).arrAt_eq_of_cover 2 G (fun t hf => ?_) cover0
  have h9 : t.val % 10 = 9 := (flush0_2 t).mp hf
  obtain ⟨-, -, -, -, -, -, -, -, -, -, e0, e1, e2⟩ := idx_facts0 t
  show (cfg0.win 2).cut (grid0.coords t) ((dat0 V c).after 2 t) = _
  funext j
  obtain ⟨u, w, v, rfl⟩ : ∃ (u : Fin 1) (w v : Fin 80), j = ix3 u w v := ⟨j 0, j 1, j 2, eq_ix3 j⟩
  obtain rfl : u = 0 := Subsingleton.elim _ _
  have hE : ((cfg0.win 2).blk t).view.emb (ix3 (0 : Fin 1) w v)
      = ix3 (⟨t.val / 10, by have := Nat.lt_of_lt_of_eq t.isLt N_0; omega⟩ : Fin 2) w v := by
    funext a
    apply Fin.ext
    match a with
    | ⟨0, _⟩ => show win0_2.index t (0 : Fin 3) * 1 + 1 * 0 = t.val / 10; rw [e0]; omega
    | ⟨1, _⟩ => show win0_2.index t (1 : Fin 3) * 80 + 1 * w.val = w.val; rw [e1]; omega
    | ⟨2, _⟩ => show win0_2.index t (2 : Fin 3) * 80 + 1 * v.val = v.val; rw [e2]; omega
  show (dat0 V c).after 2 t (ix3 (0 : Fin 1) w v) = G (((cfg0.win 2).blk t).view.emb (ix3 (0 : Fin 1) w v))
  exact (h t h9 w v).trans (congrArg G hE).symm

end Cert.KernelIdeal.Hand

end
-- ==== Proof.KI.Value0.lean ====
/-
  The array the first call leaves is the logits of its two arguments, on the extended reals.

  The grid is (batch, tile): point `t` is batch `t / 10`, tile `t % 10`.  At a point the body adds to the accumulator
  the inner products of the rows of the two re-laid blocks, which are run `t % 10` of the 204800 features of the
  batch's rows; the accumulator is reset at a batch's first tile, so after tile `k` it holds the runs `0 … k`, and at
  the last tile, where alone the result window is written back, all ten: the logit.
-/
import proofs.«156811_j53326313947745_2_alg».proof.Proof.KI.Pay0
import proofs.«156811_j53326313947745_2_alg».proof.Proof.KI.Blocks0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the TensorCore's buffer contents when the call is entered
variable (V : (c : Dev nD) → (b : Ref sig .tc) → Buf (Elt Ideal) ((c : Thread nD τ).loc b))

/-! ## The value of a tile's sum

At point `t` the batch is `t / 10` and the tile is `t % 10`: the two blocks are the arguments' entries with `h` in the
eight from `(t % 10) * 8`, so the inner products of the re-laid blocks' rows are run `t % 10` of the logit's features. -/

/-- A point of the grid is below 20. -/
theorem point_lt (t : Fin cfg0.N) : t.val < 20 := by
  have := t.isLt
  have h20 : cfg0.N = 20 := Gen.N_0
  omega

/-- Two blocks that hold the entries of `x` and `y` of batch `b` with `h` in the eight from `kt * 8`: the inner
    products of their re-laid rows are run `kt` of the logits of batch `b`. -/
theorem tile_of_blocks (x y : Cert.Attn.SA.Idx → EReal) (xb yb : Vec Ideal S1x32x8x80x80 .f32) (b : Fin 2) (kt : ℕ)
    (hk : kt < 10)
    (hx : ∀ (c' : Fin 32) (th : Fin 8) (w d : Fin 80),
      xb (ix5 (0 : Fin 1) c' th w d) = x (ix5 b c' (⟨kt * 8 + th.val, by have := th.isLt; omega⟩ : Fin 80) w d))
    (hy : ∀ (c' : Fin 32) (th : Fin 8) (w d : Fin 80),
      yb (ix5 (0 : Fin 1) c' th w d) = y (ix5 b c' (⟨kt * 8 + th.val, by have := th.isLt; omega⟩ : Fin 80) w d))
    (w v : Fin 80) :
    (∑ f : Fin 20480,
        xb (ix5 (0 : Fin 1) (⟨f.val / 80 % 32, Nat.mod_lt _ (by decide)⟩ : Fin 32)
            (⟨f.val / 2560, by have := f.isLt; omega⟩ : Fin 8) w (⟨f.val % 80, Nat.mod_lt _ (by decide)⟩ : Fin 80))
          * yb (ix5 (0 : Fin 1) (⟨f.val / 80 % 32, Nat.mod_lt _ (by decide)⟩ : Fin 32)
            (⟨f.val / 2560, by have := f.isLt; omega⟩ : Fin 8) v (⟨f.val % 80, Nat.mod_lt _ (by decide)⟩ : Fin 80)))
      = tile x y b w v kt := by
  unfold tile
  refine Finset.sum_congr rfl fun f _ => ?_
  have h : kt * 20480 + f.val < 204800 := by have := f.isLt; omega
  rw [dif_pos h, feat_run x b w kt hk f h, feat_run y b v kt hk f h, hx, hy]

/-- One tile's step on such blocks: the accumulator gains run `kt`. -/
theorem step_of_blocks (x y : Cert.Attn.SA.Idx → EReal) (xb yb : Vec Ideal S1x32x8x80x80 .f32) (a : Vec Ideal S80x80 .f32)
    (b : Fin 2) (kt : ℕ) (hk : kt < 10)
    (hx : ∀ (c' : Fin 32) (th : Fin 8) (w d : Fin 80),
      xb (ix5 (0 : Fin 1) c' th w d) = x (ix5 b c' (⟨kt * 8 + th.val, by have := th.isLt; omega⟩ : Fin 80) w d))
    (hy : ∀ (c' : Fin 32) (th : Fin 8) (w d : Fin 80),
      yb (ix5 (0 : Fin 1) c' th w d) = y (ix5 b c' (⟨kt * 8 + th.val, by have := th.isLt; omega⟩ : Fin 80) w d))
    (w v : Fin 80) :
    k0_pay2 xb yb a (ix2 w v) = a (ix2 w v) + tile x y b w v kt :=
  (pay2_apply xb yb a w v).trans (congrArg (a (ix2 w v) + ·) (tile_of_blocks x y xb yb b kt hk hx hy w v))

/-- The step at point `t` of the grid, whose blocks are those of batch `t / 10` and tile `t % 10`. -/
theorem step_at (c : Dev nD) (t : Fin cfg0.N) (b : Fin 2) (hb : b.val = t.val / 10) (a : Vec Ideal S80x80 .f32) (w v : Fin 80) :
    k0_pay2 (iblk0 (F := Ideal) V c 0 t) (iblk0 (F := Ideal) V c 1 t) a (ix2 w v)
      = a (ix2 w v) + tile (V c main_arg0) (V c main_arg1) b w v (t.val % 10) := by
  have eb : (⟨t.val / 10, by have := point_lt t; omega⟩ : Fin 2) = b := Fin.ext hb.symm
  refine step_of_blocks (V c main_arg0) (V c main_arg1) (iblk0 (F := Ideal) V c 0 t) (iblk0 (F := Ideal) V c 1 t) a b
    (t.val % 10) (Nat.mod_lt _ (by decide)) (fun c' th w d => ?_) (fun c' th w d => ?_) w v
  · rw [blk0_x, eb]
  · rw [blk0_y, eb]

/-! ## The accumulator

After the body at point `n` the accumulator holds, at `(w, v)`, the runs `0 … n % 10` of the logit of batch `n / 10`:
at a batch's first tile it is zero plus run 0; at a later tile the runs so far plus the next. -/

theorem acc0_apply (c : Dev nD) (b : Fin 2) (w v : Fin 80) :
    ∀ (n : ℕ) (hn : n < cfg0.N), b.val = n / 10 →
      acc0 (F := Ideal) V c n hn (ix2 w v)
        = ∑ a ∈ Finset.range (n % 10 + 1), tile (V c main_arg0) (V c main_arg1) b w v a := by
  intro n
  induction n with
  | zero =>
    intro hn hb
    refine (congrFun (acc0_first V c ⟨0, hn⟩ rfl) (ix2 w v)).trans ?_
    refine (step_at V c ⟨0, hn⟩ b hb (k0_pay1 (F := Ideal)) w v).trans ?_
    rw [pay1_apply, zero_add]
    show tile _ _ b w v (0 % 10) = _
    rw [Finset.sum_range_one]
  | succ n ih =>
    intro hn hb
    by_cases h0 : (n + 1) % 10 = 0
    · refine (congrFun (acc0_first V c ⟨n + 1, hn⟩ h0) (ix2 w v)).trans ?_
      refine (step_at V c ⟨n + 1, hn⟩ b hb (k0_pay1 (F := Ideal)) w v).trans ?_
      rw [pay1_apply, zero_add]
      show tile _ _ b w v ((n + 1) % 10) = _
      rw [h0, Finset.sum_range_one]
    · have hn' : n < cfg0.N := Nat.lt_of_succ_lt hn
      have hb' : b.val = n / 10 := by omega
      have e1 : (n + 1) % 10 = n % 10 + 1 := by omega
      refine (congrFun (acc0_later V c ⟨n + 1, hn⟩ h0) (ix2 w v)).trans ?_
      refine (step_at V c ⟨n + 1, hn⟩ b hb (acc0 V c n hn') w v).trans ?_
      refine (congrArg (· + tile (V c main_arg0) (V c main_arg1) b w v ((n + 1) % 10)) (ih hn' hb')).trans ?_
      rw [e1]
      exact (Finset.sum_range_succ _ _).symm

/-! ## The result array

The result window is written back only at a batch's last tile, where the accumulator holds all ten runs: the logit. -/

/-- The array the first call leaves: the logits of its two arguments. -/
theorem value0 (c : Dev nD) :
    (dat0 (F := Ideal) V c).arrAt 2 cfg0.N = Cert.Attn.logits (V c main_arg0) (V c main_arg1) := by
  refine arr_of_flushed V c _ fun t h9 w v => ?_
  refine (congrFun (after0_2 V c t) (ix3 (0 : Fin 1) w v)).trans ?_
  refine (pay3_apply (acc0 V c t.val t.isLt) w v).trans ?_
  refine (acc0_apply V c ⟨t.val / 10, by have := point_lt t; omega⟩ w v t.val t.isLt rfl).trans ?_
  show _ = Cert.Attn.logitsAt (V c main_arg0) (V c main_arg1) ⟨t.val / 10, _⟩ w v
  rw [logitsAt_tiles, h9]

end Cert.KernelIdeal.Hand

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.KI.Value1.lean ====
/-
  The value of the second call at the ideal instance: after its twenty points the result array holds, at
  `(b, c, h, w, d)`, the sum over `v` of the weights at `(b, w, v)` times the values at `(b, c, h, v, d)`.

  At a point (batch `b`, tile `kt` of 8 along H) the body multiplies the batch's 80×80 weights into the tile's block of
  the values, laid out as an 80×20480 matrix whose column `th * 2560 + c * 80 + d` is the block's `(c, th, ·, d)`, and
  stores the product re-laid as a block.  Read at an entry, the stored block is one row of the weights against one
  column of the values; each block of a point is its array read at the batch and at the tile's rows; the twenty blocks
  of the result tile the array, so the array is the specification's function of the weights and the values.
-/
import proofs.«156811_j53326313947745_2_alg».proof.Proof.KI.Data1
import proofs.«156811_j53326313947745_2_alg».proof.Proof.Spec
import proofs.«156811_j53326313947745_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-- Column `th * 2560 + c * 80 + d` of the 80×20480 matrices: the position of `(th, c, d)` in an 8×32×80 box. -/
def col1 (th : Fin 8) (c : Fin 32) (d : Fin 80) : Fin 20480 :=
  ⟨th.val * 2560 + c.val * 80 + d.val, by have := th.isLt; have := c.isLt; have := d.isLt; omega⟩

/-- The right operand of the product, at row `v` and column `(th, c, d)`: the values' block at `(0, c, th, v, d)`. -/
theorem rhs1_apply (x1 : Vec Ideal S1x32x8x80x80 .f32) (c : Fin 32) (th : Fin 8) (v d : Fin 80) :
    shapeCast S80x20480
        (transpose S80x8x32x80 [2, 1, 0, 3]
          (shapeCast S32x8x80x80 x1 shapeCasts_S1x32x8x80x80_S32x8x80x80)
          transposes_S32x8x80x80_p2_1_0_3_S80x8x32x80)
        shapeCasts_S80x8x32x80_S80x20480 (ix2 v (col1 th c d))
      = x1 (ix5 (0 : Fin 1) c th v d) := by
  refine (shapeCast_apply _ _ _ (ix4 v th c d) (by
    rw [Shape.rowMajor_val_four, Shape.rowMajor_val_two]
    show ((v.val * 8 + th.val) * 32 + c.val) * 80 + d.val = v.val * 20480 + (th.val * 2560 + c.val * 80 + d.val)
    omega)).trans ?_
  refine (transpose_apply _ _ _ _ (ix4 c th v d)
    (fun b => match b with | ⟨0, _⟩ => rfl | ⟨1, _⟩ => rfl | ⟨2, _⟩ => rfl | ⟨3, _⟩ => rfl)).trans ?_
  exact shapeCast_apply _ _ _ (ix5 (0 : Fin 1) c th v d) (by
    rw [Shape.rowMajor_val_five, Shape.rowMajor_val_four]
    show (((0 * 32 + c.val) * 8 + th.val) * 80 + v.val) * 80 + d.val = ((c.val * 8 + th.val) * 80 + v.val) * 80 + d.val
    omega)

/-- THE PAYLOAD AT AN ENTRY: the stored block at `(0, c, th, w, d)` is row `w` of the weights against the column
    `(0, c, th, ·, d)` of the values. -/
theorem weighted_apply (x0 : Vec Ideal S1x80x80 .f32) (x1 : Vec Ideal S1x32x8x80x80 .f32)
    (c : Fin 32) (th : Fin 8) (w d : Fin 80) :
    k1_pay1 x0 x1 (ix5 (0 : Fin 1) c th w d)
      = ∑ v : Fin 80, x0 (ix3 (0 : Fin 1) w v) * x1 (ix5 (0 : Fin 1) c th v d) := by
  unfold k1_pay1
  -- the closing shape cast adds the unit axis: [1,32,8,80,80] at (0, c, th, w, d) reads [32,8,80,80] at (c, th, w, d)
  refine (shapeCast_apply _ _ _ (ix4 c th w d) (by
    rw [Shape.rowMajor_val_four, Shape.rowMajor_val_five]
    show ((c.val * 8 + th.val) * 80 + w.val) * 80 + d.val = (((0 * 32 + c.val) * 8 + th.val) * 80 + w.val) * 80 + d.val
    omega)).trans ?_
  -- the transpose [2,1,0,3]: [32,8,80,80] at (c, th, w, d) reads [80,8,32,80] at (w, th, c, d)
  refine (transpose_apply _ _ _ _ (ix4 w th c d)
    (fun b => match b with | ⟨0, _⟩ => rfl | ⟨1, _⟩ => rfl | ⟨2, _⟩ => rfl | ⟨3, _⟩ => rfl)).trans ?_
  -- the reshape: [80,8,32,80] at (w, th, c, d) reads the 80×20480 product at row w, column th*2560 + c*80 + d
  refine (shapeCast_apply _ _ _ (ix2 w (col1 th c d)) (by
    rw [Shape.rowMajor_val_two, Shape.rowMajor_val_four]
    show w.val * 20480 + (th.val * 2560 + c.val * 80 + d.val) = ((w.val * 8 + th.val) * 32 + c.val) * 80 + d.val
    omega)).trans ?_
  -- the product into the zero accumulator: the sum over the 80 rows of the right operand
  refine (Cert.PlainDot.matmul_zero_apply 80 80 20480 (some .fp32) _ _ (ix2 w (col1 th c d))).trans ?_
  refine Finset.sum_congr rfl fun v _ => ?_
  show shapeCast S80x80 x0 shapeCasts_S1x80x80_S80x80 (ix2 w v) * _ = _
  rw [shapeCast_1ab_ab_apply]
  exact congrArg (x0 (ix3 (0 : Fin 1) w v) * ·) (rhs1_apply x1 c th v d)

/-! ## What the body leaves in the result window's buffer -/

theorem zeros3 : (![0, 0, 0] : Fin 3 → Nat) = fun _ => 0 := funext fun a => by fin_cases a <;> rfl
theorem zeros5 : (![0, 0, 0, 0, 0] : Fin 5 → Nat) = fun _ => 0 := funext fun a => by fin_cases a <;> rfl

/-- The one store covers the whole buffer and both loads read whole buffers: what is left is the payload of the two
    input blocks. -/
theorem out1_2_eq (x0 : Vec Ideal S1x80x80 .f32) (x1 : Vec Ideal S1x32x8x80x80 .f32) :
    out1_2 x0 x1 = k1_pay1 x0 x1 := by
  unfold out1_2
  rw [View.canon_unit_zero zeros5]
  simp only [View.ld_unit_zero (S := S1x80x80) zeros3, View.ld_unit_zero (S := S1x32x8x80x80) zeros5]

/-- Row `kt * 8 + th` of the array: row `th` of the tile `kt` of 8 along H. -/
def row1 (kt : Fin 10) (th : Fin 8) : Fin 80 :=
  ⟨kt.val * 8 + th.val, by have := kt.isLt; have := th.isLt; omega⟩

/-- A point's payload, when its two blocks are the batch's weights and the tile's rows of the values, is the
    specification's entry at the tile's row. -/
theorem point1 (A : Cert.Attn.SL.Idx → EReal) (Gv : Cert.Attn.SA.Idx → EReal)
    (x0 : Vec Ideal S1x80x80 .f32) (x1 : Vec Ideal S1x32x8x80x80 .f32) (b : Fin 2) (kt : Fin 10)
    (h0 : ∀ w v : Fin 80, x0 (ix3 (0 : Fin 1) w v) = A (ix3 b w v))
    (h1 : ∀ (c : Fin 32) (th : Fin 8) (v d : Fin 80), x1 (ix5 (0 : Fin 1) c th v d) = Gv (ix5 b c (row1 kt th) v d))
    (c : Fin 32) (th : Fin 8) (w d : Fin 80) :
    k1_pay1 x0 x1 (ix5 (0 : Fin 1) c th w d) = Cert.Attn.outAt A Gv b c (row1 kt th) w d := by
  rw [weighted_apply]
  unfold Cert.Attn.outAt
  exact Finset.sum_congr rfl fun v _ => by rw [h0, h1]

/-! ## The blocks of a point -/

-- the TensorCore's buffer contents when the call is entered
variable (V : (c : Dev nD) → (b : Ref sig .tc) → Buf (Elt Ideal) ((c : Thread nD τ).loc b))

/-- The printed index maps, decided over the grid: point `t` is batch `t / 10`, tile `t % 10`; the weights' block
    moves with the batch only, the values' and the result's blocks with the batch and the tile. -/
theorem idx_facts1 : ∀ t : Fin cfg1.N,
    win1_0.index t (0 : Fin 3) = t.val / 10 ∧ win1_0.index t (1 : Fin 3) = 0 ∧ win1_0.index t (2 : Fin 3) = 0
    ∧ win1_1.index t (0 : Fin 5) = t.val / 10 ∧ win1_1.index t (1 : Fin 5) = 0 ∧ win1_1.index t (2 : Fin 5) = t.val % 10
    ∧ win1_1.index t (3 : Fin 5) = 0 ∧ win1_1.index t (4 : Fin 5) = 0
    ∧ win1_2.index t (0 : Fin 5) = t.val / 10 ∧ win1_2.index t (1 : Fin 5) = 0 ∧ win1_2.index t (2 : Fin 5) = t.val % 10
    ∧ win1_2.index t (3 : Fin 5) = 0 ∧ win1_2.index t (4 : Fin 5) = 0 :=
  (by decide +kernel : ∀ t : Fin grid1.N, _)

/-- The weights' block at point `t` is batch `t / 10` of the weights. -/
theorem iblk1_0_apply (c : Dev nD) (t : Fin cfg1.N) (b : Fin 2) (hb : b.val = t.val / 10) (w v : Fin 80) :
    (iblk1 V c 0 t : Vec Ideal S1x80x80 .f32) (ix3 (0 : Fin 1) w v)
      = (V c main_v11 : S2x80x80.Idx → Elt Ideal .f32) (ix3 b w v) := by
  obtain ⟨e0, e1, e2, -⟩ := idx_facts1 t
  unfold iblk1
  rw [View.read_apply]
  show V c main_v11 _ = V c main_v11 _
  congr 1
  funext a
  apply Fin.ext
  match a with
  | ⟨0, _⟩ => show win1_0.index t (0 : Fin 3) * 1 + 1 * 0 = b.val; rw [e0, hb]; omega
  | ⟨1, _⟩ => show win1_0.index t (1 : Fin 3) * 80 + 1 * w.val = w.val; rw [e1]; omega
  | ⟨2, _⟩ => show win1_0.index t (2 : Fin 3) * 80 + 1 * v.val = v.val; rw [e2]; omega

/-- The values' block at point `t` is rows `8 * (t % 10) … 8 * (t % 10) + 7` of batch `t / 10` of the values. -/
theorem iblk1_1_apply (c : Dev nD) (t : Fin cfg1.N) (b : Fin 2) (kt : Fin 10) (hb : b.val = t.val / 10)
    (hkt : kt.val = t.val % 10) (c' : Fin 32) (th : Fin 8) (v d : Fin 80) :
    (iblk1 V c 1 t : Vec Ideal S1x32x8x80x80 .f32) (ix5 (0 : Fin 1) c' th v d)
      = (V c main_arg2 : S2x32x80x80x80.Idx → Elt Ideal .f32) (ix5 b c' (row1 kt th) v d) := by
  obtain ⟨-, -, -, e0, e1, e2, e3, e4, -⟩ := idx_facts1 t
  unfold iblk1
  rw [View.read_apply]
  show V c main_arg2 _ = V c main_arg2 _
  congr 1
  funext a
  apply Fin.ext
  match a with
  | ⟨0, _⟩ => show win1_1.index t (0 : Fin 5) * 1 + 1 * 0 = b.val; rw [e0, hb]; omega
  | ⟨1, _⟩ => show win1_1.index t (1 : Fin 5) * 32 + 1 * c'.val = c'.val; rw [e1]; omega
  | ⟨2, _⟩ => show win1_1.index t (2 : Fin 5) * 8 + 1 * th.val = kt.val * 8 + th.val; rw [e2, hkt]; omega
  | ⟨3, _⟩ => show win1_1.index t (3 : Fin 5) * 80 + 1 * v.val = v.val; rw [e3]; omega
  | ⟨4, _⟩ => show win1_1.index t (4 : Fin 5) * 80 + 1 * d.val = d.val; rw [e4]; omega

/-! ## From the blocks to the array -/

/-- WHAT POINT `t` WRITES BACK is block `t` of the specification's result of the weights and the values as the call
    finds them. -/
theorem flushed1_eq (c : Dev nD) (t : Fin cfg1.N) :
    (dat1 (F := Ideal) V c).flushed 2 t
      = ((cfg1.win 2).blk t).view.read (Elt Ideal) (Cert.Attn.out (V c main_v11) (V c main_arg2)) := by
  show (cfg1.win 2).cut (grid1.coords t) ((dat1 V c).after 2 t) = _
  rw [after1_2, out1_2_eq]
  obtain ⟨-, -, -, -, -, -, -, -, e0, e1, e2, e3, e4⟩ := idx_facts1 t
  have ht : t.val < 20 := Nat.lt_of_lt_of_eq t.isLt N_1
  obtain ⟨b, hb⟩ : ∃ b : Fin 2, b.val = t.val / 10 := ⟨⟨t.val / 10, by omega⟩, rfl⟩
  obtain ⟨kt, hkt⟩ : ∃ kt : Fin 10, kt.val = t.val % 10 := ⟨⟨t.val % 10, by omega⟩, rfl⟩
  funext j
  obtain ⟨u, c', th, w, d, rfl⟩ : ∃ (u : Fin 1) (c' : Fin 32) (th : Fin 8) (w d : Fin 80), j = ix5 u c' th w d :=
    ⟨j 0, j 1, j 2, j 3, j 4, eq_ix5 j⟩
  obtain rfl : u = 0 := Subsingleton.elim _ _
  have hE : ((cfg1.win 2).blk t).view.emb (ix5 (0 : Fin 1) c' th w d) = ix5 b c' (row1 kt th) w d := by
    funext a
    apply Fin.ext
    match a with
    | ⟨0, _⟩ => show win1_2.index t (0 : Fin 5) * 1 + 1 * 0 = b.val; rw [e0, hb]; omega
    | ⟨1, _⟩ => show win1_2.index t (1 : Fin 5) * 32 + 1 * c'.val = c'.val; rw [e1]; omega
    | ⟨2, _⟩ => show win1_2.index t (2 : Fin 5) * 8 + 1 * th.val = kt.val * 8 + th.val; rw [e2, hkt]; omega
    | ⟨3, _⟩ => show win1_2.index t (3 : Fin 5) * 80 + 1 * w.val = w.val; rw [e3]; omega
    | ⟨4, _⟩ => show win1_2.index t (4 : Fin 5) * 80 + 1 * d.val = d.val; rw [e4]; omega
  show k1_pay1 (iblk1 V c 0 t) (iblk1 V c 1 t) (ix5 (0 : Fin 1) c' th w d)
    = Cert.Attn.out (V c main_v11) (V c main_arg2) (((cfg1.win 2).blk t).view.emb (ix5 (0 : Fin 1) c' th w d))
  refine Eq.trans ?_ (congrArg (Cert.Attn.out (V c main_v11) (V c main_arg2)) hE).symm
  show _ = Cert.Attn.outAt (V c main_v11) (V c main_arg2) b c' (row1 kt th) w d
  exact point1 (V c main_v11) (V c main_arg2) (iblk1 V c 0 t) (iblk1 V c 1 t) b kt
    (fun w v => iblk1_0_apply V c t b hb w v) (fun c' th v d => iblk1_1_apply V c t b kt hb hkt c' th v d) c' th w d

/-- An index of the array is in point `t`'s block iff each coordinate is in the block's range on its axis. -/
theorem mem_blk1 (t : Fin cfg1.N) (i : S2x32x80x80x80.Idx) :
    i ∈ ((cfg1.win 2).blk t).view.set ↔ ∀ a : Fin 5, win1_2.index t a * S1x32x8x80x80.size a ≤ (i a).val
      ∧ (i a).val < win1_2.index t a * S1x32x8x80x80.size a + S1x32x8x80x80.size a := by
  show i ∈ ((View.whole main_v12).slice (win1_2.rect t)).set ↔ _
  rw [View.set_slice_whole, Rect.mem_set_unit]
  exact Iff.rfl

/-- Every index of the array is in the block of the point of its batch and its row's tile: the point covering
    `(b, c, h, w, d)` is `10 * b + h / 8`. -/
theorem cover1 (i : S2x32x80x80x80.Idx) :
    ∃ t : Fin cfg1.N, (cfg1.win 2).flush t = true ∧ i ∈ ((cfg1.win 2).blk t).view.set := by
  have h0 : (i 0).val < 2 := (i 0).isLt
  have h1 : (i 1).val < 32 := (i 1).isLt
  have h2 : (i 2).val < 80 := (i 2).isLt
  have h3 : (i 3).val < 80 := (i 3).isLt
  have h4 : (i 4).val < 80 := (i 4).isLt
  obtain ⟨t, ht⟩ : ∃ t : Fin cfg1.N, t.val = 10 * (i 0).val + (i 2).val / 8 :=
    ⟨⟨10 * (i 0).val + (i 2).val / 8, by rw [show cfg1.N = 20 from N_1]; omega⟩, rfl⟩
  obtain ⟨-, -, -, -, -, -, -, -, e0, e1, e2, e3, e4⟩ := idx_facts1 t
  refine ⟨t, flush1_2 t, ?_⟩
  rw [mem_blk1]
  intro a
  match a with
  | ⟨0, _⟩ => show win1_2.index t (0 : Fin 5) * 1 ≤ (i 0).val ∧ (i 0).val < win1_2.index t (0 : Fin 5) * 1 + 1; rw [e0, ht]; omega
  | ⟨1, _⟩ => show win1_2.index t (1 : Fin 5) * 32 ≤ (i 1).val ∧ (i 1).val < win1_2.index t (1 : Fin 5) * 32 + 32; rw [e1]; omega
  | ⟨2, _⟩ => show win1_2.index t (2 : Fin 5) * 8 ≤ (i 2).val ∧ (i 2).val < win1_2.index t (2 : Fin 5) * 8 + 8; rw [e2, ht]; omega
  | ⟨3, _⟩ => show win1_2.index t (3 : Fin 5) * 80 ≤ (i 3).val ∧ (i 3).val < win1_2.index t (3 : Fin 5) * 80 + 80; rw [e3]; omega
  | ⟨4, _⟩ => show win1_2.index t (4 : Fin 5) * 80 ≤ (i 4).val ∧ (i 4).val < win1_2.index t (4 : Fin 5) * 80 + 80; rw [e4]; omega

/-- THE RESULT ARRAY after the second call: the specification's result of the weights and the values as the call
    finds them. -/
theorem value1 (c : Dev nD) :
    (dat1 (F := Ideal) V c).arrAt 2 cfg1.N = Cert.Attn.out (V c main_v11) (V c main_arg2) :=
  (dat1 (F := Ideal) V c).arrAt_eq_of_cover 2 (Cert.Attn.out (V c main_v11) (V c main_arg2))
    (fun t _ => flushed1_eq V c t) cover1

end Cert.KernelIdeal.Hand

end
-- ==== Proof.KI.Host.lean ====
/-
  The host lines between the two calls, at the ideal instance: from the logits they compute the attention weights, by
  the softmax along the last axis — the same fourteen operations the reference applies, carried as ONE function of the
  logits and never opened — and they write no argument.
-/
import proofs.«156811_j53326313947745_2_alg».proof.Proof.Gen.KernelIdeal.Launch
import proofs.«156811_j53326313947745_2_alg».proof.Proof.Gen.KernelIdeal.Regions
import proofs.«156811_j53326313947745_2_alg».proof.Proof.Spec
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

/-- The shape relations of the softmax's operations, as this program states them. -/
theorem softK : Cert.Attn.SoftFacts :=
  ⟨reducesTo_S2x80x80_S2x80_d2, h_S_, bcast_S_S2x80, bcast_S2x80_S2x80x1_0_1, bcast_S2x80x1_S2x80x80_0_1_2⟩

set_option maxHeartbeats 2000000 in
/-- After the host lines, from ANY contents `W` of the TensorCore's buffers, the weights' buffer holds the softmax of
    what the logits' buffer held. -/
theorem host_att (W : Valuation τ sig (Elt Ideal)) :
    StableHlo.after (hostOps1 (F := Ideal)) W (Proc.devRef .tc main_v11)
      = Cert.Attn.soft softK (W (Proc.devRef .tc main_v0)) := by
  unfold Cert.Attn.soft Cert.Attn.expShift Cert.Attn.rowMax
  after_results_simp

/-- A buffer the host lines do not write keeps its contents. -/
theorem host_keeps (W : Valuation τ sig (Elt Ideal)) (r : Ref sig .tc) (h : r ∉ hostOps1_W) :
    StableHlo.after (hostOps1 (F := Ideal)) W (Proc.devRef .tc r) = W (Proc.devRef .tc r) :=
  StableHlo.after_of_writes_sub hostOps1 W hostOps1_writes h

end Cert.KernelIdeal.Hand

end
-- ==== Proof.KI.Final.lean ====
/-
  The idealized kernel's result, named.  The buffers are followed through @main's three segments: the first call leaves
  the logits of the first two arguments in its result array; the host lines turn them into the attention weights (the
  softmax, carried as one function) and write no argument; the second call leaves, in its result array, the weights
  applied to the third argument.  No segment changes an argument.  So the run ends with the result at
  `Cert.Attn.result` of the three arguments' launch contents.
-/
import proofs.«156811_j53326313947745_2_alg».proof.Proof.KI.Run
import proofs.«156811_j53326313947745_2_alg».proof.Proof.KI.Value0
import proofs.«156811_j53326313947745_2_alg».proof.Proof.KI.Value1
import proofs.«156811_j53326313947745_2_alg».proof.Proof.KI.Host
import proofs.«156811_j53326313947745_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first call its result array holds the logits of the first two arguments. -/
theorem W1_main_v0 (c : Dev nD) :
    W1 m ρ c (Proc.devRef .tc main_v0)
      = Cert.Attn.logits (m ((c.tc : Thread nD τ).loc main_arg0)) (m ((c.tc : Thread nD τ).loc main_arg1)) :=
  (W1_arr m ρ c 2).trans (value0 (V0 m ρ) c)

/-- After the host lines the weights' buffer holds their softmax. -/
theorem W2_main_v11 (c : Dev nD) :
    W2 m ρ c (Proc.devRef .tc main_v11)
      = Cert.Attn.soft softK (Cert.Attn.logits (m ((c.tc : Thread nD τ).loc main_arg0)) (m ((c.tc : Thread nD τ).loc main_arg1))) :=
  (host_att (W1 m ρ c)).trans (congrArg (Cert.Attn.soft softK) (W1_main_v0 m ρ c))

/-- The third argument reaches the second call as launched: the first call does not stage it, the host lines do not
    write it. -/
theorem W2_main_arg2 (c : Dev nD) :
    W2 m ρ c (Proc.devRef .tc main_arg2) = m ((c.tc : Thread nD τ).loc main_arg2) :=
  (host_keeps (W1 m ρ c) main_arg2 (by decide)).trans (W1_of_ne m ρ c main_arg2 (by decide))

/-- After the second call its result array holds the weights applied to the third argument. -/
theorem W3_main_v12 (c : Dev nD) :
    W3 m ρ c (Proc.devRef .tc main_v12)
      = Cert.Attn.result softK (m ((c.tc : Thread nD τ).loc main_arg0)) (m ((c.tc : Thread nD τ).loc main_arg1))
          (m ((c.tc : Thread nD τ).loc main_arg2)) :=
  (W3_arr m ρ c 2).trans ((value1 (V2 m ρ) c).trans
    (congrArg₂ Cert.Attn.out (W2_main_v11 m ρ c) (W2_main_arg2 m ρ c)))

/-- THE KERNEL'S RUN at the ideal instance: every weakly fair execution terminates, nothing faulting, with the result
    at the specification's function of the arguments' launch contents and the arguments unchanged. -/
theorem kernel_run :
    θ_run (defs (F := Ideal)) (onTc (τ := τ) (main (F := Ideal))) ⟨m, fun _ => 0, ρ⟩ (fun r => ∀ c : Dev nD,
      r.2.mem ((c.tc : Thread nD τ).loc main_v12)
          = Cert.Attn.result softK (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
    ⟨(h c _ (mem_uc main_v12 (by decide))).trans (W3_main_v12 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.RefValue.lean ====
/-
  The reference program computes the specification's function.

  Its first two arguments are transposed to [B, W, H, C, D] and flattened to [B, W, 204800], so entry (b, w, k) of the
  flattened array is the argument at (b, c, h, w, d) with k = h * 2560 + c * 80 + d: the feature k of row w.  The first
  contraction is therefore the inner product of feature rows, the logits; the fourteen operations after it are the
  softmax, taken as one function of the logits and never read at an index; the second contraction sums the weights
  against the third argument's rows, and the closing reshape and transpose put entry (b, w, h * 2560 + c * 80 + d)
  back at (b, c, h, w, d).
-/
import proofs.«156811_j53326313947745_2_alg».proof.Proof.Gen.ReferenceIdeal.Read
import proofs.«156811_j53326313947745_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem

/-- The shape relations of the softmax's operations, as the reference states them. -/
theorem softFacts : Cert.Attn.SoftFacts :=
  ⟨reducesTo_S2x80x80_S2x80_d2, h_S_, bcast_S_S2x80, bcast_S2x80_S2x80x1_0_1, bcast_S2x80x1_S2x80x80_0_1_2⟩

/-- Entry (b, w, h * 2560 + c * 80 + d) of the flattened transpose of the first argument is its entry (b, c, h, w, d):
    the flat position is ((b * 80 + w) * 204800 + h * 2560 + c * 80 + d), whose digits in the mixed radix
    (2, 80, 80, 32, 80) are (b, w, h, c, d), and the transpose exchanges the second and the fourth. -/
theorem idx_feat0 (j : S2x80x204800.Idx) (b : Fin 2) (c : Fin 32) (h w d : Fin 80)
    (e0 : (j 0).val = b.val) (e1 : (j 1).val = w.val) (e2 : (j 2).val = h.val * 2560 + c.val * 80 + d.val) :
    idx_main_v0 (idx_main_v1 j) = ix5 b c h w d := by
  have hb := b.isLt; have hc := c.isLt; have hh := h.isLt; have hw := w.isLt; have hd := d.isLt
  funext a
  apply Fin.ext
  match a with
  | ⟨0, _⟩ => show (((j 0).val * 80 + (j 1).val) * 204800 + (j 2).val) / 16384000 = b.val; omega
  | ⟨1, _⟩ => show (((j 0).val * 80 + (j 1).val) * 204800 + (j 2).val) / 80 % 32 = c.val; omega
  | ⟨2, _⟩ => show (((j 0).val * 80 + (j 1).val) * 204800 + (j 2).val) / 2560 % 80 = h.val; omega
  | ⟨3, _⟩ => show (((j 0).val * 80 + (j 1).val) * 204800 + (j 2).val) / 204800 % 80 = w.val; omega
  | ⟨4, _⟩ => show (((j 0).val * 80 + (j 1).val) * 204800 + (j 2).val) % 80 = d.val; omega

/-- Entry (b, w, h * 2560 + c * 80 + d) of the flattened transpose of the second argument is its entry (b, c, h, w, d):
    the flat position is ((b * 80 + w) * 204800 + h * 2560 + c * 80 + d), whose digits in the mixed radix
    (2, 80, 80, 32, 80) are (b, w, h, c, d), and the transpose exchanges the second and the fourth. -/
theorem idx_feat1 (j : S2x80x204800.Idx) (b : Fin 2) (c : Fin 32) (h w d : Fin 80)
    (e0 : (j 0).val = b.val) (e1 : (j 1).val = w.val) (e2 : (j 2).val = h.val * 2560 + c.val * 80 + d.val) :
    idx_main_v2 (idx_main_v3 j) = ix5 b c h w d := by
  have hb := b.isLt; have hc := c.isLt; have hh := h.isLt; have hw := w.isLt; have hd := d.isLt
  funext a
  apply Fin.ext
  match a with
  | ⟨0, _⟩ => show (((j 0).val * 80 + (j 1).val) * 204800 + (j 2).val) / 16384000 = b.val; omega
  | ⟨1, _⟩ => show (((j 0).val * 80 + (j 1).val) * 204800 + (j 2).val) / 80 % 32 = c.val; omega
  | ⟨2, _⟩ => show (((j 0).val * 80 + (j 1).val) * 204800 + (j 2).val) / 2560 % 80 = h.val; omega
  | ⟨3, _⟩ => show (((j 0).val * 80 + (j 1).val) * 204800 + (j 2).val) / 204800 % 80 = w.val; omega
  | ⟨4, _⟩ => show (((j 0).val * 80 + (j 1).val) * 204800 + (j 2).val) % 80 = d.val; omega

/-- Entry (b, w, h * 2560 + c * 80 + d) of the flattened transpose of the third argument is its entry (b, c, h, w, d):
    the flat position is ((b * 80 + w) * 204800 + h * 2560 + c * 80 + d), whose digits in the mixed radix
    (2, 80, 80, 32, 80) are (b, w, h, c, d), and the transpose exchanges the second and the fourth. -/
theorem idx_feat2 (j : S2x80x204800.Idx) (b : Fin 2) (c : Fin 32) (h w d : Fin 80)
    (e0 : (j 0).val = b.val) (e1 : (j 1).val = w.val) (e2 : (j 2).val = h.val * 2560 + c.val * 80 + d.val) :
    idx_main_v4 (idx_main_v5 j) = ix5 b c h w d := by
  have hb := b.isLt; have hc := c.isLt; have hh := h.isLt; have hw := w.isLt; have hd := d.isLt
  funext a
  apply Fin.ext
  match a with
  | ⟨0, _⟩ => show (((j 0).val * 80 + (j 1).val) * 204800 + (j 2).val) / 16384000 = b.val; omega
  | ⟨1, _⟩ => show (((j 0).val * 80 + (j 1).val) * 204800 + (j 2).val) / 80 % 32 = c.val; omega
  | ⟨2, _⟩ => show (((j 0).val * 80 + (j 1).val) * 204800 + (j 2).val) / 2560 % 80 = h.val; omega
  | ⟨3, _⟩ => show (((j 0).val * 80 + (j 1).val) * 204800 + (j 2).val) / 204800 % 80 = w.val; omega
  | ⟨4, _⟩ => show (((j 0).val * 80 + (j 1).val) * 204800 + (j 2).val) % 80 = d.val; omega

/-- A feature number splits as k = (k / 2560) * 2560 + (k / 80 % 32) * 80 + k % 80. -/
theorem feat_split (k : Fin 204800) : k.val = k.val / 2560 * 2560 + k.val / 80 % 32 * 80 + k.val % 80 := by
  have := k.isLt; omega

/-- The first contraction is the inner product of feature rows. -/
theorem logits_eq (x0 x1 : (⟨S2x32x80x80x80, .f32⟩ : BufTy).Contents (Elt Ideal)) :
    val_main_v6 (F := Ideal) x0 x1 = Cert.Attn.logits x0 x1 := by
  funext i
  rw [val_main_v6_apply]
  unfold Cert.Attn.logits Cert.Attn.logitsAt
  refine Finset.sum_congr rfl fun k _ => ?_
  rw [val_main_v1_apply, val_main_v0_apply, val_main_v3_apply, val_main_v2_apply]
  unfold Cert.Attn.feat
  rw [idx_feat0 (lidx_main_v6 i k) (i 0) ⟨k.val / 80 % 32, Nat.mod_lt _ (by decide)⟩ ⟨k.val / 2560, by have := k.isLt; omega⟩
        (i 1) ⟨k.val % 80, Nat.mod_lt _ (by decide)⟩ rfl rfl (feat_split k),
      idx_feat1 (ridx_main_v6 i k) (i 0) ⟨k.val / 80 % 32, Nat.mod_lt _ (by decide)⟩ ⟨k.val / 2560, by have := k.isLt; omega⟩
        (i 2) ⟨k.val % 80, Nat.mod_lt _ (by decide)⟩ rfl rfl (feat_split k)]

/-- The fourteen operations between the two contractions are the softmax of the logits, operation for operation. -/
theorem soft_eq (x0 x1 : (⟨S2x32x80x80x80, .f32⟩ : BufTy).Contents (Elt Ideal)) :
    val_main_v17 (F := Ideal) x0 x1 = Cert.Attn.soft softFacts (val_main_v6 (F := Ideal) x0 x1) := by
  unfold val_main_v17 val_main_v16 val_main_v15 val_main_v14 val_main_v13 val_main_v12 val_main_v11 val_main_v10 val_main_v9
    val_main_v8 val_main_v7 val_main_cst val_main_cst_0 val_main_cst_1
  generalize val_main_v6 (F := Ideal) x0 x1 = L
  rfl

/-- The flat position of (b, w, h, c, d) in [2, 80, 80, 32, 80] is (b * 80 + w) * 204800 + (h * 2560 + c * 80 + d):
    row (b, w), feature h * 2560 + c * 80 + d. -/
theorem idx_unflat (j : S2x32x80x80x80.Idx) (a : Fin 3) :
    (idx_main_v19 (idx_main_v20 j) a).val
      = (![(j 0).val, (j 3).val, (j 2).val * 2560 + (j 1).val * 80 + (j 4).val] : Fin 3 → Nat) a := by
  have h0 : (j 0).val < 2 := (j 0).isLt; have h1 : (j 1).val < 32 := (j 1).isLt; have h2 : (j 2).val < 80 := (j 2).isLt
  have h3 : (j 3).val < 80 := (j 3).isLt; have h4 : (j 4).val < 80 := (j 4).isLt
  match a with
  | ⟨0, _⟩ => show (((((j 0).val * 80 + (j 3).val) * 80 + (j 2).val) * 32 + (j 1).val) * 80 + (j 4).val) / 16384000 = (j 0).val; omega
  | ⟨1, _⟩ => show (((((j 0).val * 80 + (j 3).val) * 80 + (j 2).val) * 32 + (j 1).val) * 80 + (j 4).val) / 204800 % 80 = (j 3).val; omega
  | ⟨2, _⟩ => show (((((j 0).val * 80 + (j 3).val) * 80 + (j 2).val) * 32 + (j 1).val) * 80 + (j 4).val) % 204800 = (j 2).val * 2560 + (j 1).val * 80 + (j 4).val; omega

/-- The whole reference: the weights of row w against the third argument's entries at (b, c, h, ·, d). -/
theorem result_eq (x0 x1 x2 : (⟨S2x32x80x80x80, .f32⟩ : BufTy).Contents (Elt Ideal)) :
    val_main_v20 (F := Ideal) x0 x1 x2 = Cert.Attn.result softFacts x0 x1 x2 := by
  have e17 : val_main_v17 (F := Ideal) x0 x1 = Cert.Attn.soft softFacts (Cert.Attn.logits x0 x1) :=
    (soft_eq x0 x1).trans (congrArg _ (logits_eq x0 x1))
  funext j
  rw [val_main_v20_apply, val_main_v19_apply, val_main_v18_apply, e17]
  unfold Cert.Attn.result Cert.Attn.out Cert.Attn.outAt
  generalize Cert.Attn.soft softFacts (Cert.Attn.logits x0 x1) = att
  refine Finset.sum_congr rfl fun v _ => ?_
  rw [val_main_v5_apply, val_main_v4_apply]
  have el : lidx_main_v18 (idx_main_v19 (idx_main_v20 j)) v = ix3 (j 0) (j 3) v := funext fun a => Fin.ext (by
    match a with
    | ⟨0, _⟩ => exact idx_unflat j 0
    | ⟨1, _⟩ => exact idx_unflat j 1
    | ⟨2, _⟩ => rfl)
  have er : idx_main_v4 (idx_main_v5 (ridx_main_v18 (idx_main_v19 (idx_main_v20 j)) v)) = ix5 (j 0) (j 1) (j 2) v (j 4) :=
    idx_feat2 _ (j 0) (j 1) (j 2) v (j 4) (idx_unflat j 0) rfl (idx_unflat j 2)
  rw [el, er]
  rfl

/-- Every execution of the reference ends with its result at the specification's function of the arguments it was
    launched with, and the arguments as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = Cert.Attn.result softFacts (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans ((val_main_v20_eq _ _ _).trans (result_eq _ _ _)), (h c).2⟩)
    (Cert.ReferenceIdeal.Value.run (F := Ideal) m ρ)

end Cert.ReferenceIdeal.RefValue

end
-- ==== Proof.lean ====
/-
  The kernel and the reference compute one function of their three arguments x, y, g over [B, C, H, W, D] = [2, 32, 80, 80, 80].

  Row w of batch b of an argument is a vector of 204800 features, feature k = h·2560 + c·80 + d being the entry at
  (b, c, h, w, d).  The logits are the unscaled inner products L(b, w, v) = ∑ k, x(b, w; k) · y(b, v; k); the attention
  weights are the softmax of L along v; the result is out(b, c, h, w, d) = ∑ v, att(b, w, v) · g(b, c, h, v, d).

  The reference computes this with two whole contractions on the host.  The kernel runs two grids over (batch, tile of 8
  along H): the first accumulates L tile by tile in a scratch 80×80 — zeroed at a batch's first tile, each tile adding
  the inner products over its 20480 features, copied out at the batch's last tile —, the host lines between apply the
  softmax, and the second multiplies the weights into each tile's block of g.  On the extended reals the tile-by-tile
  sum is the whole sum regrouped, which takes only commutativity and associativity of addition, so the precondition
  (finite inputs) is never opened; the softmax is the same composition of host operations in both programs and is
  carried as one function of the logits.

  The frames: each program terminates without a fault and leaves its arguments unchanged — the kernel's by running its
  three segments (call, host lines, call) with each call's body proved at every grid point, once for any float
  instance and read at the word level and at the ideal one; the reference's from its run.  The ideal pass rewrote
  nothing, so the kernel's idealization is its own text read at the ideal instance.
-/
import proofs.«156811_j53326313947745_2_alg».proof.Defs
import proofs.«156811_j53326313947745_2_alg».proof.Proof.Gen.Kernel
import proofs.«156811_j53326313947745_2_alg».proof.Proof.Gen.KernelIdeal
import proofs.«156811_j53326313947745_2_alg».proof.Proof.Gen.ReferenceIdeal
import proofs.«156811_j53326313947745_2_alg».proof.Proof.Gen.Pre_finite_inputs
import proofs.«156811_j53326313947745_2_alg».proof.Proof.K.Run
import proofs.«156811_j53326313947745_2_alg».proof.Proof.KI.Final
import proofs.«156811_j53326313947745_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel, at the word level: it runs to the end and its arguments end unchanged. -/
theorem frame_k : Cert.frame_Kernel := fun m ρ _ => Cert.Kernel.Hand.frame m ρ

/-- The same text read at the ideal instance. -/
theorem frame_ki : Cert.frame_KernelIdeal := fun m ρ _ => Cert.KernelIdeal.Hand.frame m ρ

/-- The reference: its run, the result dropped. -/
theorem frame_ri : Cert.frame_ReferenceIdeal := fun m ρ _ =>
  (θ_run Cert.ReferenceIdeal.defs _ _).mono (fun _ h c => (h c).2) (Cert.ReferenceIdeal.RefValue.ref_run m ρ)

/-- The ideal pass rewrote no operation: nothing to restate. -/
theorem preserves : Cert.preserves_Kernel_KernelIdeal := trivial

/-- From memories agreeing on the arguments both programs end with the specification's function of the arguments: the
    kernel by following its buffers through the two calls and the host lines between, the reference by reading its
    run index by index.  The two programs state the softmax's shape relations separately; as propositions the two
    witnesses are one. -/
theorem algebraic : Cert.algebraic_KernelIdeal_ReferenceIdeal := by
  intro m ρ m' ρ' _ hagree
  refine ⟨fun c => Cert.Attn.result Cert.KernelIdeal.Hand.softK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.kernel_run m ρ, ?_⟩
  refine (θ_run Cert.ReferenceIdeal.defs _ _).mono (fun _ h c => ⟨(h c).1.trans ?_, (h c).2⟩)
    (Cert.ReferenceIdeal.RefValue.ref_run m' ρ')
  exact congr (congr (congrArg (Cert.Attn.result Cert.KernelIdeal.Hand.softK) (hagree c).1) (hagree c).2.1) (hagree c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
